-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x300 : Shape := ⟨2, ![50000, 300]⟩
abbrev S2x400000 : Shape := ⟨2, ![2, 400000]⟩
abbrev S300x512 : Shape := ⟨2, ![300, 512]⟩
abbrev S512 : Shape := ⟨1, ![512]⟩
abbrev S512x300 : Shape := ⟨2, ![512, 300]⟩
abbrev S300 : Shape := ⟨1, ![300]⟩
abbrev S_ : Shape := ⟨0, ![]⟩

class Facts : Prop where
  bcast_S_S50000x300 : S_.BroadcastsInDim S50000x300 (![] : Fin 0 → Fin S50000x300.rank)
  reducesTo_S50000x300_S_d0_1 : S50000x300.ReducesTo [0, 1] S_
  h_S_ : 0 < S_.numel
  bcast_S_S300x512 : S_.BroadcastsInDim S300x512 (![] : Fin 0 → Fin S300x512.rank)
  reducesTo_S300x512_S_d0_1 : S300x512.ReducesTo [0, 1] S_
  bcast_S_S512 : S_.BroadcastsInDim S512 (![] : Fin 0 → Fin S512.rank)
  reducesTo_S512_S_d0 : S512.ReducesTo [0] S_
  bcast_S_S512x300 : S_.BroadcastsInDim S512x300 (![] : Fin 0 → Fin S512x300.rank)
  reducesTo_S512x300_S_d0_1 : S512x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg5 : FVec F S300 .f32) (main_v13 : IVec S_ 1) (main_v16 : IVec S512x300 1) : IVec S_ 1 :=
  let main_c_5 : IVec S_ 1 := constantI S_ 1 1#1
  let main_v17 : IVec S_ 1 := (fun x v => Host.reduce IntOp.andi x v reducesTo_S512x300_S_d0_1 h_S_) main_v16 main_c_5
  let main_v18 : IVec S_ 1 := andi main_v13 main_v17
  let main_v19 : FVec F S300 .f32 := Host.absf main_arg5
  let main_cst_6 : FVec F S_ .f32 := constant S_ .f32 0x7F800000#32
  let main_v20 : FVec F S300 .f32 := broadcastInDim S300 ![] bcast_S_S300 main_cst_6
  let main_v21 : IVec S300 1 := cmpf .olt main_v19 main_v20
  let main_c_7 : IVec S_ 1 := constantI S_ 1 1#1
  let main_v22 : IVec S_ 1 := (fun x v => Host.reduce IntOp.andi x v reducesTo_S300_S_d0 h_S_) main_v21 main_c_7
  let main_v23 : IVec S_ 1 := andi main_v18 main_v22
  main_v23

def fn {F : FTy → Type} [FloatOps F] (main_arg0 : FVec F S50000x300 .f32) (main_arg1 : IVec S2x400000 32) (main_arg2 : FVec F S300x512 .f32) (main_arg3 : FVec F S512 .f32) (main_arg4 : FVec F S512x300 .f32) (main_arg5 : FVec F S300 .f32) : IVec S_ 1 :=
  let main_v0 : FVec F S50000x300 .f32 := Host.absf main_arg0
  let main_cst : FVec F S_ .f32 := constant S_ .f32 0x7F800000#32
  let main_v1 : FVec F S50000x300 .f32 := broadcastInDim S50000x300 ![] bcast_S_S50000x300 main_cst
  let main_v2 : IVec S50000x300 1 := cmpf .olt main_v0 main_v1
  let main_c : IVec S_ 1 := constantI S_ 1 1#1
  let main_v3 : IVec S_ 1 := (fun x v => Host.reduce IntOp.andi x v reducesTo_S50000x300_S_d0_1 h_S_) main_v2 main_c
  let main_v4 : FVec F S300x512 .f32 := Host.absf main_arg2
  let main_cst_0 : FVec F S_ .f32 := constant S_ .f32 0x7F800000#32
  let main_v5 : FVec F S300x512 .f32 := broadcastInDim S300x512 ![] bcast_S_S300x512 main_cst_0
  let main_v6 : IVec S300x512 1 := cmpf .olt main_v4 main_v5
  let main_c_1 : IVec S_ 1 := constantI S_ 1 1#1
  let main_v7 : IVec S_ 1 := (fun x v => Host.reduce IntOp.andi x v reducesTo_S300x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x300 .f32 := Host.absf main_arg4
  let main_cst_4 : FVec F S_ .f32 := constant S_ .f32 0x7F800000#32
  let main_v15 : FVec F S512x300 .f32 := broadcastInDim S512x300 ![] bcast_S_S512x300 main_cst_4
  let main_v16 : IVec S512x300 1 := cmpf .olt main_v14 main_v15
  fn_part1 (F := F) main_arg5 main_v13 main_v16
-- ==== Kernel.lean ====
abbrev S50000x300 : Shape := ⟨2, ![50000, 300]⟩
abbrev S2x400000 : Shape := ⟨2, ![2, 400000]⟩
abbrev S300x512 : Shape := ⟨2, ![300, 512]⟩
abbrev S512 : Shape := ⟨1, ![512]⟩
abbrev S512x300 : Shape := ⟨2, ![512, 300]⟩
abbrev S300 : Shape := ⟨1, ![300]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x1 : Shape := ⟨2, ![50000, 1]⟩
abbrev S1x512 : Shape := ⟨2, ![1, 512]⟩
abbrev S1x300 : Shape := ⟨2, ![1, 300]⟩
abbrev S50000x512 : Shape := ⟨2, ![50000, 512]⟩
abbrev S1000x300 : Shape := ⟨2, ![1000, 300]⟩
abbrev S1000x1 : Shape := ⟨2, ![1000, 1]⟩
abbrev S1000x512 : Shape := ⟨2, ![1000, 512]⟩
abbrev S450000x512 : Shape := ⟨2, ![450000, 512]⟩
abbrev S450000x300 : Shape := ⟨2, ![450000, 300]⟩

abbrev nBuf : Space → Nat
  | .hbm => 71
  | .vmem => 22
  | .smem => 0
  | _ => 0

abbrev bufTy : (tb : Table) → Fin (tcTables nBuf tb) → BufTy
  | .hbm, ⟨0, _⟩ => ⟨S50000x300, .f32⟩
  | .hbm, ⟨1, _⟩ => ⟨S2x400000, .i32⟩
  | .hbm, ⟨2, _⟩ => ⟨S300x512, .f32⟩
  | .hbm, ⟨3, _⟩ => ⟨S512, .f32⟩
  | .hbm, ⟨4, _⟩ => ⟨S512x300, .f32⟩
  | .hbm, ⟨5, _⟩ => ⟨S300, .f32⟩
  | .hbm, ⟨6, _⟩ => ⟨S50000, .i32⟩
  | .hbm, ⟨7, _⟩ => ⟨S1x400000, .i32⟩
  | .hbm, ⟨8, _⟩ => ⟨S400000, .i32⟩
  | .hbm, ⟨9, _⟩ => ⟨S450000, .i32⟩
  | .hbm, ⟨10, _⟩ => ⟨S1x400000, .i32⟩
  | .hbm, ⟨11, _⟩ => ⟨S400000, .i32⟩
  | .hbm, ⟨12, _⟩ => ⟨S450000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S450000, .i32⟩
  | .hbm, ⟨17, _⟩ => ⟨S450000, .i1⟩
  | .hbm, ⟨18, _⟩ => ⟨S_, .i32⟩
  | .hbm, ⟨19, _⟩ => ⟨S450000, .i32⟩
  | .hbm, ⟨20, _⟩ => ⟨S450000, .i32⟩
  | .hbm, ⟨21, _⟩ => ⟨S450000, .i32⟩
  | .hbm, ⟨22, _⟩ => ⟨S450000x1, .i32⟩
  | .hbm, ⟨23, _⟩ => ⟨S_, .f32⟩
  | .hbm, ⟨24, _⟩ => ⟨S450000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S1x512, .f32⟩
  | .hbm, ⟨39, _⟩ => ⟨S1x300, .f32⟩
  | .hbm, ⟨40, _⟩ => ⟨S50000x512, .bf16⟩
  | .hbm, ⟨41, _⟩ => ⟨S_, .i32⟩
  | .hbm, ⟨42, _⟩ => ⟨S450000, .i32⟩
  | .hbm, ⟨43, _⟩ => ⟨S450000, .i1⟩
  | .hbm, ⟨44, _⟩ => ⟨S_, .i32⟩
  | .hbm, ⟨45, _⟩ => ⟨S450000, .i32⟩
  | .hbm, ⟨46, _⟩ => ⟨S450000, .i32⟩
  | .hbm, ⟨47, _⟩ => ⟨S450000, .i32⟩
  | .hbm, ⟨48, _⟩ => ⟨S450000x1, .i32⟩
  | .hbm, ⟨49, _⟩ => ⟨S450000x512, .bf16⟩
  | .hbm, ⟨50, _⟩ => ⟨S450000x512, .f32⟩
  | .hbm, ⟨51, _⟩ => ⟨S_, .f32⟩
  | .hbm, ⟨52, _⟩ => ⟨S50000x512, .f32⟩
  | .hbm, ⟨53, _⟩ => ⟨S450000x1, .i32⟩
  | .hbm, ⟨54, _⟩ => ⟨S50000x512, .f32⟩
  | .hbm, ⟨55, _⟩ => ⟨S50000x300, .bf16⟩
  | .hbm, ⟨56, _⟩ => ⟨S_, .i32⟩
  | .hbm, ⟨57, _⟩ => ⟨S450000, .i32⟩
  | .hbm, ⟨58, _⟩ => ⟨S450000, .i1⟩
  | .hbm, ⟨59, _⟩ => ⟨S_, .i32⟩
  | .hbm, ⟨60, _⟩ => ⟨S450000, .i32⟩
  | .hbm, ⟨61, _⟩ => ⟨S450000, .i32⟩
  | .hbm, ⟨62, _⟩ => ⟨S450000, .i32⟩
  | .hbm, ⟨63, _⟩ => ⟨S450000x1, .i32⟩
  | .hbm, ⟨64, _⟩ => ⟨S450000x300, .bf16⟩
  | .hbm, ⟨65, _⟩ => ⟨S450000x300, .f32⟩
  | .hbm, ⟨66, _⟩ => ⟨S_, .f32⟩
  | .hbm, ⟨67, _⟩ => ⟨S50000x300, .f32⟩
  | .hbm, ⟨68, _⟩ => ⟨S450000x1, .i32⟩
  | .hbm, ⟨69, _⟩ => ⟨S50000x300, .f32⟩
  | .hbm, ⟨70, _⟩ => ⟨S50000x300, .f32⟩
  | .local _ .vmem, ⟨0, _⟩ => ⟨S1000x300, .f32⟩
  | .local _ .vmem, ⟨1, _⟩ => ⟨S1000x300, .f32⟩
  | .local _ .vmem, ⟨2, _⟩ => ⟨S300x512, .f32⟩
  | .local _ .vmem, ⟨3, _⟩ => ⟨S1000x1, .f32⟩
  | .local _ .vmem, ⟨4, _⟩ => ⟨S1000x1, .f32⟩
  | .local _ .vmem, ⟨5, _⟩ => ⟨S1000x512, .bf16⟩
  | .local _ .vmem, ⟨6, _⟩ => ⟨S1000x512, .bf16⟩
  | .local _ .vmem, ⟨7, _⟩ => ⟨S1000x512, .f32⟩
  | .local _ .vmem, ⟨8, _⟩ => ⟨S1000x512, .f32⟩
  | .local _ .vmem, ⟨9, _⟩ => ⟨S1000x1, .f32⟩
  | .local _ .vmem, ⟨10, _⟩ => ⟨S1000x1, .f32⟩
  | .local _ .vmem, ⟨11, _⟩ => ⟨S1x512, .f32⟩
  | .local _ .vmem, ⟨12, _⟩ => ⟨S512x300, .f32⟩
  | .local _ .vmem, ⟨13, _⟩ => ⟨S1000x300, .bf16⟩
  | .local _ .vmem, ⟨14, _⟩ => ⟨S1000x300, .bf16⟩
  | .local _ .vmem, ⟨15, _⟩ => ⟨S1000x300, .f32⟩
  | .local _ .vmem, ⟨16, _⟩ => ⟨S1000x300, .f32⟩
  | .local _ .vmem, ⟨17, _⟩ => ⟨S1000x1, .f32⟩
  | .local _ .vmem, ⟨18, _⟩ => ⟨S1000x1, .f32⟩
  | .local _ .vmem, ⟨19, _⟩ => ⟨S1x300, .f32⟩
  | .local _ .vmem, ⟨20, _⟩ => ⟨S1000x300, .f32⟩
  | .local _ .vmem, ⟨21, _⟩ => ⟨S1000x300, .f32⟩
  | _, _ => ⟨S50000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x300 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x300 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x300 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S_S450000 : S_.BroadcastsInDim S450000 (![] : Fin 0 → Fin S450000.rank)
  bcast_S450000_S450000x1_0 : S450000.BroadcastsInDim S450000x1 (![0] : Fin 1 → Fin S450000x1.rank)
  shapeCasts_S50000_S50000x1 : S50000.ShapeCasts S50000x1
  shapeCasts_S512_S1x512 : S512.ShapeCasts S1x512
  shapeCasts_S300_S1x300 : S300.ShapeCasts S1x300
  inb_S1000x300_S1000x300_0_0 : ∀ a, (![0, 0] : Fin 2 → Nat) a + S1000x300.size a ≤ S1000x300.size a
  h_S1000x300 : 0 < S1000x300.numel
  bitsLt_bf16_f32 : FTy.bits .bf16 < FTy.bits .f32
  inb_S300x512_S300x512_0_0 : ∀ a, (![0, 0] : Fin 2 → Nat) a + S300x512.size a ≤ S300x512.size a
  h_S300x512 : 0 < S300x512.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x512 : S1000x1.Broadcasts S1000x512
  inb_S1000x512_S1000x512_0_0 : ∀ a, (![0, 0] : Fin 2 → Nat) a + S1000x512.size a ≤ S1000x512.size a
  h_S1000x512 : 0 < S1000x512.numel
  packedbf16_S1000x512_S1000x512_0_0 : (Rect.unit (s := S1000x512) ![0, 0] S1000x512.size inb_S1000x512_S1000x512_0_0).PackedRows (EltTy.packing .bf16)
  bcast_S_S50000x512 : S_.BroadcastsInDim S50000x512 (![] : Fin 0 → Fin S50000x512.rank)
  shapeCasts_S1000x512_S1000x512 : S1000x512.ShapeCasts S1000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  inb_S512x300_S512x300_0_0 : ∀ a, (![0, 0] : Fin 2 → Nat) a + S512x300.size a ≤ S512x300.size a
  h_S512x300 : 0 < S512x300.numel
  broadcasts_S1000x1_S1000x300 : S1000x1.Broadcasts S1000x300
  packedbf16_S1000x300_S1000x300_0_0 : (Rect.unit (s := S1000x300) ![0, 0] S1000x300.size inb_S1000x300_S1000x300_0_0).PackedRows (EltTy.packing .bf16)
  bcast_S_S50000x300 : S_.BroadcastsInDim S50000x300 (![] : Fin 0 → Fin S50000x300.rank)
  shapeCasts_S1000x300_S1000x300 : S1000x300.ShapeCasts S1000x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S1000x300 : S1x300.Broadcasts S1000x300
  scatter_S50000_S450000x1_S450000_n_0_0_1_wf : ScatterDims.WF S50000 S450000x1 S450000 [] [0] [0] 1
  dot_S1000x300_S300x512_S1000x512_1_0_0_1_n_n_wf : DotDims.WF S1000x300 S300x512 S1000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S1000x512_S512x300_S1000x300_1_0_0_1_n_n_wf : DotDims.WF S1000x512 S512x300 S1000x300 [1] [0] [0] [1] [] []
  gather_S50000x300_S450000x1_S450000x300_1_0_n_n_0_1_1300_wf : GatherDims.WF S50000x300 S450000x1 S450000x300 [1] [0] [] [0] [] 1 ![1, 300]
  scatter_S50000x300_S450000x1_S450000x300_1_0_0_1_wf : ScatterDims.WF S50000x300 S450000x1 S450000x300 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S50000x300.size a
  hwx0_0 : ∀ i : grid0.Coords, EltTy.bits .f32 = 32 ∨ (Rect.block (s := S50000x300) S1000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x512.size a ≤ S300x512.size a
  hwx0_1 : ∀ i : grid0.Coords, EltTy.bits .f32 = 32 ∨ (Rect.block (s := S300x512) S300x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x512.size a ≤ S50000x512.size a
  hwx0_3 : ∀ i : grid0.Coords, EltTy.bits .bf16 = 32 ∨ (Rect.block (s := S50000x512) S1000x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x512.size a ≤ S50000x512.size a
  hwx1_0 : ∀ i : grid1.Coords, EltTy.bits .f32 = 32 ∨ (Rect.block (s := S50000x512) S1000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S50000x1.size a
  hwx1_1 : ∀ i : grid1.Coords, EltTy.bits .f32 = 32 ∨ (Rect.block (s := S50000x1) S1000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x300.size a ≤ S512x300.size a
  hwx1_3 : ∀ i : grid1.Coords, EltTy.bits .f32 = 32 ∨ (Rect.block (s := S512x300) S512x300.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1000x300.size a ≤ S50000x300.size a
  hwx1_4 : ∀ i : grid1.Coords, EltTy.bits .bf16 = 32 ∨ (Rect.block (s := S50000x300) S1000x300.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x300.size a ≤ S50000x300.size a
  hwx2_0 : ∀ i : grid2.Coords, EltTy.bits .f32 = 32 ∨ (Rect.block (s := S50000x300) S1000x300.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x1.size a ≤ S50000x1.size a
  hwx2_1 : ∀ i : grid2.Coords, EltTy.bits .f32 = 32 ∨ (Rect.block (s := S50000x1) S1000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x300.size a ≤ S1x300.size a
  hwx2_2 : ∀ i : grid2.Coords, EltTy.bits .f32 = 32 ∨ (Rect.block (s := S1x300) S1x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x300.size a ≤ S50000x300.size a
  hwx2_3 : ∀ i : grid2.Coords, EltTy.bits .f32 = 32 ∨ (Rect.block (s := S50000x300) S1000x300.size (cc2_transform_3 i) (hinb2_3 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def dot_S1000x300_S300x512_S1000x512_1_0_0_1_n_n : DotDims S1000x300 S300x512 S1000x512 where
  lhsContracting := [1]
  rhsContracting := [0]
  lhsNonContracting := [0]
  rhsNonContracting := [1]
  lhsBatch := []
  rhsBatch := []
  wf := dot_S1000x300_S300x512_S1000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S1000x512_S512x300_S1000x300_1_0_0_1_n_n : DotDims S1000x512 S512x300 S1000x300 where
  lhsContracting := [1]
  rhsContracting := [0]
  lhsNonContracting := [0]
  rhsNonContracting := [1]
  lhsBatch := []
  rhsBatch := []
  wf := dot_S1000x512_S512x300_S1000x300_1_0_0_1_n_n_wf
def gather_S50000x300_S450000x1_S450000x300_1_0_n_n_0_1_1300 : GatherDims S50000x300 S450000x1 S450000x300 where
  offsetDims := [1]
  collapsedSliceDims := [0]
  operandBatchingDims := []
  startIndicesBatchingDims := []
  startIndexMap := [0]
  indexVectorDim := 1
  sliceSizes := ![1, 300]
  wf := gather_S50000x300_S450000x1_S450000x300_1_0_n_n_0_1_1300_wf
def scatter_S50000x300_S450000x1_S450000x300_1_0_0_1 : ScatterDims S50000x300 S450000x1 S450000x300 where
  updateWindowDims := [1]
  insertedWindowDims := [0]
  scatterDimsToOperandDims := [0]
  indexVectorDim := 1
  wf := scatter_S50000x300_S450000x1_S450000x300_1_0_0_1_wf

abbrev win0_0 : Pipeline.Window sig grid0 :=
  Pipeline.Window.ofSpec (Memref.whole main_arg0) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S1000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1000x300.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S1000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x300 : Shape := ⟨2, ![50000, 300]⟩
abbrev S2x400000 : Shape := ⟨2, ![2, 400000]⟩
abbrev S300x512 : Shape := ⟨2, ![300, 512]⟩
abbrev S512 : Shape := ⟨1, ![512]⟩
abbrev S512x300 : Shape := ⟨2, ![512, 300]⟩
abbrev S300 : Shape := ⟨1, ![300]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x512 : Shape := ⟨2, ![50000, 512]⟩
abbrev S450000x512 : Shape := ⟨2, ![450000, 512]⟩
abbrev S1x512 : Shape := ⟨2, ![1, 512]⟩
abbrev S450000x300 : Shape := ⟨2, ![450000, 300]⟩
abbrev S1x300 : Shape := ⟨2, ![1, 300]⟩

abbrev nBuf : Space → Nat
  | .hbm => 145
  | .vmem => 0
  | .smem => 0
  | _ => 0

abbrev hbmTy0_0 (i : Nat) : BufTy := match i % 128 with
  | 0 => ⟨S50000x300, .f32⟩
  | 1 => ⟨S2x400000, .i32⟩
  | 2 => ⟨S300x512, .f32⟩
  | 3 => ⟨S512, .f32⟩
  | 4 => ⟨S512x300, .f32⟩
  | 5 => ⟨S300, .f32⟩
  | 6 => ⟨S50000, .i32⟩
  | 7 => ⟨S1x400000, .i32⟩
  | 8 => ⟨S400000, .i32⟩
  | 9 => ⟨S450000, .i32⟩
  | 10 => ⟨S1x400000, .i32⟩
  | 11 => ⟨S400000, .i32⟩
  | 12 => ⟨S450000, .i32⟩
  | 13 => ⟨S_, .f32⟩
  | 14 => ⟨S50000, .f32⟩
  | 15 => ⟨S_, .i32⟩
  | 16 => ⟨S450000, .i32⟩
  | 17 => ⟨S450000, .i1⟩
  | 18 => ⟨S_, .i32⟩
  | 19 => ⟨S450000, .i32⟩
  | 20 => ⟨S450000, .i32⟩
  | 21 => ⟨S450000, .i32⟩
  | 22 => ⟨S450000x1, .i32⟩
  | 23 => ⟨S_, .f32⟩
  | 24 => ⟨S450000, .f32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S450000, .i32⟩
  | 39 => ⟨S450000, .i1⟩
  | 40 => ⟨S_, .i32⟩
  | 41 => ⟨S450000, .i32⟩
  | 42 => ⟨S450000, .i32⟩
  | 43 => ⟨S450000, .i32⟩
  | 44 => ⟨S450000x1, .i32⟩
  | 45 => ⟨S450000, .f32⟩
  | 46 => ⟨S_, .i32⟩
  | 47 => ⟨S450000, .i32⟩
  | 48 => ⟨S450000, .i1⟩
  | 49 => ⟨S_, .i32⟩
  | 50 => ⟨S450000, .i32⟩
  | 51 => ⟨S450000, .i32⟩
  | 52 => ⟨S450000, .i32⟩
  | 53 => ⟨S450000x1, .i32⟩
  | 54 => ⟨S450000, .f32⟩
  | 55 => ⟨S450000, .f32⟩
  | 56 => ⟨S50000x512, .f32⟩
  | 57 => ⟨S_, .i32⟩
  | 58 => ⟨S450000, .i32⟩
  | 59 => ⟨S450000, .i1⟩
  | 60 => ⟨S_, .i32⟩
  | 61 => ⟨S450000, .i32⟩
  | 62 => ⟨S450000, .i32⟩
  | 63 => ⟨S450000, .i32⟩
  | 64 => ⟨S450000x1, .i32⟩
  | 65 => ⟨S450000x512, .f32⟩
  | 66 => ⟨S450000x1, .f32⟩
  | 67 => ⟨S450000x512, .f32⟩
  | 68 => ⟨S450000x512, .f32⟩
  | 69 => ⟨S_, .f32⟩
  | 70 => ⟨S50000x512, .f32⟩
  | 71 => ⟨S450000x1, .i32⟩
  | 72 => ⟨S50000x512, .f32⟩
  | 73 => ⟨S1x512, .f32⟩
  | 74 => ⟨S50000x512, .f32⟩
  | 75 => ⟨S50000x512, .f32⟩
  | 76 => ⟨S_, .f32⟩
  | 77 => ⟨S50000x512, .f32⟩
  | 78 => ⟨S50000x512, .f32⟩
  | 79 => ⟨S_, .f32⟩
  | 80 => ⟨S50000, .f32⟩
  | 81 => ⟨S_, .i32⟩
  | 82 => ⟨S450000, .i32⟩
  | 83 => ⟨S450000, .i1⟩
  | 84 => ⟨S_, .i32⟩
  | 85 => ⟨S450000, .i32⟩
  | 86 => ⟨S450000, .i32⟩
  | 87 => ⟨S450000, .i32⟩
  | 88 => ⟨S450000x1, .i32⟩
  | 89 => ⟨S_, .f32⟩
  | 90 => ⟨S450000, .f32⟩
  | 91 => ⟨S50000, .f32⟩
  | 92 => ⟨S_, .f32⟩
  | 93 => ⟨S50000, .f32⟩
  | 94 => ⟨S50000, .i1⟩
  | 95 => ⟨S_, .f32⟩
  | 96 => ⟨S50000, .f32⟩
  | 97 => ⟨S50000, .f32⟩
  | 98 => ⟨S50000, .f32⟩
  | 99 => ⟨S_, .f32⟩
  | 100 => ⟨S_, .f32⟩
  | 101 => ⟨S50000, .f32⟩
  | 102 => ⟨S50000, .f32⟩
  | 103 => ⟨S_, .i32⟩
  | 104 => ⟨S450000, .i32⟩
  | 105 => ⟨S450000, .i1⟩
  | 106 => ⟨S_, .i32⟩
  | 107 => ⟨S450000, .i32⟩
  | 108 => ⟨S450000, .i32⟩
  | 109 => ⟨S450000, .i32⟩
  | 110 => ⟨S450000x1, .i32⟩
  | 111 => ⟨S450000, .f32⟩
  | 112 => ⟨S_, .i32⟩
  | 113 => ⟨S450000, .i32⟩
  | 114 => ⟨S450000, .i1⟩
  | 115 => ⟨S_, .i32⟩
  | 116 => ⟨S450000, .i32⟩
  | 117 => ⟨S450000, .i32⟩
  | 118 => ⟨S450000, .i32⟩
  | 119 => ⟨S450000x1, .i32⟩
  | 120 => ⟨S450000, .f32⟩
  | 121 => ⟨S450000, .f32⟩
  | 122 => ⟨S50000x300, .f32⟩
  | 123 => ⟨S_, .i32⟩
  | 124 => ⟨S450000, .i32⟩
  | 125 => ⟨S450000, .i1⟩
  | 126 => ⟨S_, .i32⟩
  | 127 => ⟨S450000, .i32⟩
  | _ => ⟨S50000x300, .f32⟩

abbrev hbmTy0_1 (i : Nat) : BufTy := match i % 128 with
  | 0 => ⟨S450000, .i32⟩
  | 1 => ⟨S450000, .i32⟩
  | 2 => ⟨S450000x1, .i32⟩
  | 3 => ⟨S450000x300, .f32⟩
  | 4 => ⟨S450000x1, .f32⟩
  | 5 => ⟨S450000x300, .f32⟩
  | 6 => ⟨S450000x300, .f32⟩
  | 7 => ⟨S_, .f32⟩
  | 8 => ⟨S50000x300, .f32⟩
  | 9 => ⟨S450000x1, .i32⟩
  | 10 => ⟨S50000x300, .f32⟩
  | 11 => ⟨S1x300, .f32⟩
  | 12 => ⟨S50000x300, .f32⟩
  | 13 => ⟨S50000x300, .f32⟩
  | 14 => ⟨S_, .f32⟩
  | 15 => ⟨S50000x300, .f32⟩
  | 16 => ⟨S50000x300, .f32⟩
  | _ => ⟨S50000x300, .f32⟩

abbrev hbmTy (i : Nat) : BufTy := match i / 128 with
  | 0 => hbmTy0_0 i
  | 1 => hbmTy0_1 i
  | _ => ⟨S50000x300, .f32⟩

abbrev bufTy : (tb : Table) → Fin (tcTables nBuf tb) → BufTy
  | .hbm, ⟨i, _⟩ => hbmTy i
  | _, _ => ⟨S50000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_c_8 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_call1_cst : Ref sig .tc := ⟨.hbm, 76, rfl⟩
abbrev main_call1_v0 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_15 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_cst_17 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_18 : Ref sig .tc := ⟨.hbm, 99, rfl⟩
abbrev main_call2_v0 : Ref sig .tc := ⟨.hbm, 100, rfl⟩
abbrev main_call2_v1 : Ref sig .tc := ⟨.hbm, 101, rfl⟩
abbrev main_v69 : Ref sig .tc := ⟨.hbm, 102, rfl⟩
abbrev main_c_19 : Ref sig .tc := ⟨.hbm, 103, rfl⟩
abbrev main_v70 : Ref sig .tc := ⟨.hbm, 104, rfl⟩
abbrev main_v71 : Ref sig .tc := ⟨.hbm, 105, rfl⟩
abbrev main_c_20 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_21 : Ref sig .tc := ⟨.hbm, 112, rfl⟩
abbrev main_v77 : Ref sig .tc := ⟨.hbm, 113, rfl⟩
abbrev main_v78 : Ref sig .tc := ⟨.hbm, 114, rfl⟩
abbrev main_c_22 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_c_23 : Ref sig .tc := ⟨.hbm, 123, rfl⟩
abbrev main_v86 : Ref sig .tc := ⟨.hbm, 124, rfl⟩
abbrev main_v87 : Ref sig .tc := ⟨.hbm, 125, rfl⟩
abbrev main_c_24 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_25 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_call3_cst : Ref sig .tc := ⟨.hbm, 142, rfl⟩
abbrev main_call3_v0 : Ref sig .tc := ⟨.hbm, 143, rfl⟩
abbrev main_v102 : Ref sig .tc := ⟨.hbm, 144, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S50000 : S_.BroadcastsInDim S50000 (![] : Fin 0 → Fin S50000.rank)
  bcast_S_S450000 : S_.BroadcastsInDim S450000 (![] : Fin 0 → Fin S450000.rank)
  bcast_S450000_S450000x1_0 : S450000.BroadcastsInDim S450000x1 (![0] : Fin 1 → Fin S450000x1.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S450000x1_S450000x300_0_1 : S450000x1.BroadcastsInDim S450000x300 (![0, 1] : Fin 2 → Fin S450000x300.rank)
  bcast_S_S50000x300 : S_.BroadcastsInDim S50000x300 (![] : Fin 0 → Fin S50000x300.rank)
  bcast_S300_S1x300_1 : S300.BroadcastsInDim S1x300 (![1] : Fin 1 → Fin S1x300.rank)
  bcast_S1x300_S50000x300_0_1 : S1x300.BroadcastsInDim S50000x300 (![0, 1] : Fin 2 → Fin S50000x300.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x300_S300x512_S50000x512_1_0_0_1_n_n_wf : DotDims.WF S50000x300 S300x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x300_S50000x300_1_0_0_1_n_n_wf : DotDims.WF S50000x512 S512x300 S50000x300 [1] [0] [0] [1] [] []
  gather_S50000x300_S450000x1_S450000x300_1_0_n_n_0_1_1300_wf : GatherDims.WF S50000x300 S450000x1 S450000x300 [1] [0] [] [0] [] 1 ![1, 300]
  scatter_S50000x300_S450000x1_S450000x300_1_0_0_1_wf : ScatterDims.WF S50000x300 S450000x1 S450000x300 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x300_S300x512_S50000x512_1_0_0_1_n_n : DotDims S50000x300 S300x512 S50000x512 where
  lhsContracting := [1]
  rhsContracting := [0]
  lhsNonContracting := [0]
  rhsNonContracting := [1]
  lhsBatch := []
  rhsBatch := []
  wf := dot_S50000x300_S300x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x300_S50000x300_1_0_0_1_n_n : DotDims S50000x512 S512x300 S50000x300 where
  lhsContracting := [1]
  rhsContracting := [0]
  lhsNonContracting := [0]
  rhsNonContracting := [1]
  lhsBatch := []
  rhsBatch := []
  wf := dot_S50000x512_S512x300_S50000x300_1_0_0_1_n_n_wf
def gather_S50000x300_S450000x1_S450000x300_1_0_n_n_0_1_1300 : GatherDims S50000x300 S450000x1 S450000x300 where
  offsetDims := [1]
  collapsedSliceDims := [0]
  operandBatchingDims := []
  startIndicesBatchingDims := []
  startIndexMap := [0]
  indexVectorDim := 1
  sliceSizes := ![1, 300]
  wf := gather_S50000x300_S450000x1_S450000x300_1_0_n_n_0_1_1300_wf
def scatter_S50000x300_S450000x1_S450000x300_1_0_0_1 : ScatterDims S50000x300 S450000x1 S450000x300 where
  updateWindowDims := [1]
  insertedWindowDims := [0]
  scatterDimsToOperandDims := [0]
  indexVectorDim := 1
  wf := scatter_S50000x300_S450000x1_S450000x300_1_0_0_1_wf

class Facts : Prop extends Facts₀ where

variable [Facts]
-- ==== Proof.LibSumScale.lean ====
/-
  Scaling a finite sum of extended reals.

  The extended reals are not a semiring: a product does not distribute over a sum when the factor is infinite or
  negative and the summands are infinite of both signs.  A factor that is a nonnegative real does distribute,
  over every finite sum and whatever the summands, infinite ones included (the sum of an infinite positive and an
  infinite negative entry is the negative infinity on both sides).  So a finite sum divided by a positive real d
  is the sum of the entries each multiplied by 1 / d: the mean of n entries taken as "sum, then divide by n" and
  as "scale each entry by 1 / n, then sum" agree with no finiteness assumption on the entries.
-/
import Idealize.ShloMosaic.PureOps.Ideal

noncomputable section

namespace Cert.LibSumScale

open Idealize.ShloMosaic
open scoped BigOperators

/-- Multiplication by a nonnegative finite extended real distributes over a finite sum of extended reals. -/
theorem sum_mul_of_nonneg {ι : Type} (s : Finset ι) (y : ι → EReal) {a : EReal} (h0 : 0 ≤ a) (ht : a ≠ ⊤) :
    (∑ k ∈ s, y k) * a = ∑ k ∈ s, y k * a := by
  classical
  induction s using Finset.induction_on with
  | empty => simp
  | insert k s hk ih =>
    rw [Finset.sum_insert hk, Finset.sum_insert hk, EReal.right_distrib_of_nonneg_of_ne_top h0 ht, ih]

/-- The same with the factor on the left. -/
theorem mul_sum_of_nonneg {ι : Type} (s : Finset ι) (y : ι → EReal) {a : EReal} (h0 : 0 ≤ a) (ht : a ≠ ⊤) :
    a * (∑ k ∈ s, y k) = ∑ k ∈ s, a * y k := by
  rw [mul_comm, sum_mul_of_nonneg s y h0 ht]
  exact Finset.sum_congr rfl fun k _ => mul_comm _ _

/-- A finite sum divided by a positive real is the sum of the entries each multiplied by its reciprocal. -/
theorem sum_div_coe {ι : Type} (s : Finset ι) (y : ι → EReal) {d : ℝ} (hd : 0 < d) :
    Ideal.div (∑ k ∈ s, y k) (d : EReal) = ∑ k ∈ s, y k * ((1 / d : ℝ) : EReal) := by
  rw [Ideal.div_coe (ne_of_gt hd)]
  exact sum_mul_of_nonneg s y (by exact_mod_cast (le_of_lt (one_div_pos.mpr hd))) (EReal.coe_ne_top _)

end Cert.LibSumScale

end
-- ==== Proof.LibNegDot.lean ====
/-
  A product with a NEGATED matrix, subtracted, against the product added — x − y · (−E) against x + y · E — entry
  by entry on the extended reals. The two agree when the row's and the column's entries are real numbers; with
  infinite entries a sum can hold both infinities, and negation does not pass through such a sum.
-/
import Idealize.ShloMosaic.PureOps.Ideal

noncomputable section

namespace Cert.LibNegDot

open scoped BigOperators

/-- A finite sum of reals, read in the extended reals, is the sum of the terms read there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Subtracting the product of a row with the NEGATED column is adding the product with the column, when the
    row's and the column's entries are real: the terms are then real, and negation passes through a real sum. -/
theorem sub_dot_neg {ι : Type} [Fintype ι] (a : EReal) (y e : ι → EReal) (hy : ∀ k, ∃ r : ℝ, y k = r)
    (he : ∀ k, ∃ r : ℝ, e k = r) : a - ∑ k, y k * -(e k) = a + ∑ k, y k * e k := by
  choose yr hyr using hy
  choose er her using he
  have h1 : ∑ k, y k * -(e k) = ((-(∑ k, yr k * er k) : ℝ) : EReal) := by
    rw [← Finset.sum_neg_distrib, coe_sum]
    refine Finset.sum_congr rfl fun k _ => ?_
    rw [hyr k, her k, ← EReal.coe_neg, ← EReal.coe_mul, mul_neg]
  have h2 : ∑ k, y k * e k = ((∑ k, yr k * er k : ℝ) : EReal) := by
    rw [coe_sum]
    refine Finset.sum_congr rfl fun k _ => ?_
    rw [hyr k, her k, EReal.coe_mul]
  rw [h1, h2, sub_eq_add_neg, ← EReal.coe_neg, neg_neg]

end Cert.LibNegDot
-- ==== Proof.LibGcnAgg.lean ====
/-
  Two layers of graph convolution with symmetric normalisation, stated index by index on the extended reals, in two
  arrangements of the same arithmetic.

  The graph is an edge list of M entries over N nodes. Entry e has a source row, read clamped into the nodes (gr e : Fin N),
  and a target, read as an integer with no clamping (sc e : Int): the entry is accumulated into node n exactly when
  sc e = n, and an entry whose target is no node contributes nothing. gc e is the target read clamped; for an entry that
  is accumulated into node n it is n. dinv n is the reciprocal square root of the number of entries accumulated into n.

  One aggregation of a node-feature matrix h, at node n and feature q, is the sum over the entries e accumulated into n of
    h (gr e, q) · dinv (gr e) · dinv n.
  The first arrangement (aggK) scales the rows of h by dinv before they are picked and scales the accumulated sum by
  dinv n afterwards; the second (aggR) scales each picked row by the product dinv (gr e) · dinv (gc e) before it is
  accumulated. They agree because on an accumulated entry gc e = n, the product of extended reals is associative, and a
  factor that is a nonnegative real distributes over every finite sum of extended reals, whatever the summands. The
  factor dinv n is such a real whenever at least one entry is accumulated into n (the count is then a real ≥ 1); when
  none is, both sums are empty and both sides are zero, whatever dinv n is. No entry of h needs to be finite.
-/
import Idealize.ShloMosaic.PureOps.Ideal
import Idealize.ShloMosaic.PureOps.Ideal.Laws
import proofs.«100301_j47253230191022_2_alg».proof.Proof.LibSumScale
import proofs.«100301_j47253230191022_2_alg».proof.Proof.LibNegDot

noncomputable section

namespace Cert.Gcn

open Idealize.ShloMosaic
open scoped BigOperators

/-- The float word of zero and of one, as the programs spell them. -/
abbrev zeroW : EReal := Ideal.ofBits .f32 0x00000000#32
abbrev oneW : EReal := Ideal.ofBits .f32 0x3F800000#32

theorem zeroW_eq : zeroW = 0 := Ideal.ofBits_zero_f32

theorem oneW_eq : oneW = 1 := by
  simp [Ideal.ofBits, Ideal.ieee]
  rw [← EReal.coe_mul]
  norm_num

variable {N M : Nat}

/-- A matrix product, entry (n, q): the sum over k of x (n, k) · w (k, q). -/
def mm {K D : Nat} (x : Fin N → Fin K → EReal) (w : Fin K → Fin D → EReal) (n : Fin N) (q : Fin D) : EReal :=
  ∑ k : Fin K, x n k * w k q

/-! ## One aggregation, in the two arrangements -/

section agg

variable (gr gc : Fin M → Fin N) (sc : Fin M → Int) (dinv : Fin N → EReal)

/-- Rows scaled before they are picked, the accumulated sum scaled afterwards. -/
def aggK {D : Nat} (h : Fin N → Fin D → EReal) (n : Fin N) (q : Fin D) : EReal :=
  (zeroW + ∑ e : Fin M, if sc e = (n.val : Int) then h (gr e) q * dinv (gr e) else 0) * dinv n

/-- Each picked row scaled by the product of the two factors before it is accumulated. -/
def aggR {D : Nat} (h : Fin N → Fin D → EReal) (n : Fin N) (q : Fin D) : EReal :=
  zeroW + ∑ e : Fin M, if sc e = (n.val : Int) then h (gr e) q * (dinv (gr e) * dinv (gc e)) else 0

/-- The two arrangements agree: associativity of the product, gc e = n on an accumulated entry, and a nonnegative real
    factor distributing over the finite sum; with no accumulated entry both sides are zero. -/
theorem aggK_eq_aggR (hgc : ∀ (e : Fin M) (n : Fin N), sc e = (n.val : Int) → gc e = n)
    (hd : ∀ n : Fin N, (∀ e, sc e ≠ (n.val : Int)) ∨ (0 ≤ dinv n ∧ dinv n ≠ ⊤))
    {D : Nat} (h : Fin N → Fin D → EReal) (n : Fin N) (q : Fin D) :
    aggK gr sc dinv h n q = aggR gr gc sc dinv h n q := by
  unfold aggK aggR
  rw [zeroW_eq, zero_add, zero_add]
  rcases hd n with hn | ⟨h0, ht⟩
  · rw [Finset.sum_eq_zero (fun e _ => if_neg (hn e)), Finset.sum_eq_zero (fun e _ => if_neg (hn e)), zero_mul]
  · rw [Cert.LibSumScale.sum_mul_of_nonneg _ _ h0 ht]
    refine Finset.sum_congr rfl fun e _ => ?_
    by_cases he : sc e = (n.val : Int)
    · rw [if_pos he, if_pos he, hgc e n he, mul_assoc]
    · rw [if_neg he, if_neg he, zero_mul]

end agg

/-! ## The normalising factor -/

/-- The number of entries accumulated into node n, as the programs compute it: ones accumulated into zeros. -/
def deg (sc : Fin M → Int) (n : Fin N) : EReal :=
  zeroW + ∑ e : Fin M, if sc e = (n.val : Int) then oneW else 0

/-- Its reciprocal square root. -/
def dinvOf (sc : Fin M → Int) (n : Fin N) : EReal := Ideal.rsqrt (deg (N := N) sc n)

/-- Either no entry is accumulated into n, or the factor is a nonnegative real: the count is then a real ≥ 1. -/
theorem dinvOf_ok (sc : Fin M → Int) (n : Fin N) :
    (∀ e, sc e ≠ (n.val : Int)) ∨ (0 ≤ dinvOf sc n ∧ dinvOf sc n ≠ ⊤) := by
  classical
  by_cases hex : ∃ e, sc e = (n.val : Int)
  · right
    obtain ⟨e0, he0⟩ := hex
    have hdeg : deg sc n = (((Finset.univ.filter fun e : Fin M => sc e = (n.val : Int)).card : ℝ) : EReal) := by
      unfold deg
      rw [zeroW_eq, zero_add, oneW_eq]
      have hterm : ∀ e : Fin M, (if sc e = (n.val : Int) then (1 : EReal) else 0)
          = (((if sc e = (n.val : Int) then (1 : ℝ) else 0 : ℝ)) : EReal) := by
        intro e; split <;> simp
      simp only [hterm]
      rw [← Cert.LibNegDot.coe_sum, Finset.sum_boole]
    have hcard : (0 : ℝ) < ((Finset.univ.filter fun e : Fin M => sc e = (n.val : Int)).card : ℝ) := by
      exact_mod_cast Finset.card_pos.mpr ⟨e0, Finset.mem_filter.mpr ⟨Finset.mem_univ _, he0⟩⟩
    unfold dinvOf
    rw [hdeg, Ideal.rsqrt_coe, if_neg (not_lt.mpr hcard.le), if_neg hcard.ne']
    exact ⟨by exact_mod_cast inv_nonneg.mpr (Real.sqrt_nonneg _), EReal.coe_ne_top _⟩
  · left
    exact fun e he => hex ⟨e, he⟩

/-! ## The two layers -/

section net

variable (gr gc : Fin M → Fin N) (sc : Fin M → Int) (dinv : Fin N → EReal)
variable {K1 K2 D : Nat}

/-- The hidden layer, first arrangement: aggregate x · W1, add the bias, clamp below at zero. -/
def hiddenK (x : Fin N → Fin K1 → EReal) (W1 : Fin K1 → Fin K2 → EReal) (b1 : Fin K2 → EReal) (n : Fin N) (k : Fin K2) : EReal :=
  max (aggK gr sc dinv (mm x W1) n k + b1 k) zeroW

/-- The hidden layer, second arrangement. -/
def hiddenR (x : Fin N → Fin K1 → EReal) (W1 : Fin K1 → Fin K2 → EReal) (b1 : Fin K2 → EReal) (n : Fin N) (k : Fin K2) : EReal :=
  max (aggR gr gc sc dinv (mm x W1) n k + b1 k) zeroW

/-- The output, first arrangement: aggregate hidden · W2 and add the bias. -/
def outK (x : Fin N → Fin K1 → EReal) (W1 : Fin K1 → Fin K2 → EReal) (b1 : Fin K2 → EReal)
    (W2 : Fin K2 → Fin D → EReal) (b2 : Fin D → EReal) (n : Fin N) (q : Fin D) : EReal :=
  aggK gr sc dinv (mm (hiddenK gr sc dinv x W1 b1) W2) n q + b2 q

/-- The output, second arrangement. -/
def outR (x : Fin N → Fin K1 → EReal) (W1 : Fin K1 → Fin K2 → EReal) (b1 : Fin K2 → EReal)
    (W2 : Fin K2 → Fin D → EReal) (b2 : Fin D → EReal) (n : Fin N) (q : Fin D) : EReal :=
  aggR gr gc sc dinv (mm (hiddenR gr gc sc dinv x W1 b1) W2) n q + b2 q

/-- The two arrangements of the whole network agree: the aggregation law, once per layer. -/
theorem outK_eq_outR (hgc : ∀ (e : Fin M) (n : Fin N), sc e = (n.val : Int) → gc e = n)
    (hd : ∀ n : Fin N, (∀ e, sc e ≠ (n.val : Int)) ∨ (0 ≤ dinv n ∧ dinv n ≠ ⊤))
    (x : Fin N → Fin K1 → EReal) (W1 : Fin K1 → Fin K2 → EReal) (b1 : Fin K2 → EReal)
    (W2 : Fin K2 → Fin D → EReal) (b2 : Fin D → EReal) (n : Fin N) (q : Fin D) :
    outK gr sc dinv x W1 b1 W2 b2 n q = outR gr gc sc dinv x W1 b1 W2 b2 n q := by
  have hh : hiddenK gr sc dinv x W1 b1 = hiddenR gr gc sc dinv x W1 b1 := by
    funext n k
    unfold hiddenK hiddenR
    rw [aggK_eq_aggR gr gc sc dinv hgc hd]
  unfold outK outR
  rw [aggK_eq_aggR gr gc sc dinv hgc hd, hh]

end net

end Cert.Gcn

end
-- ==== Proof.Spec.lean ====
/-
  The network both programs compute, entry by entry on the extended reals: two graph convolutions with symmetric
  normalisation over an edge list, each followed by a bias and a clamp below at zero.

  The edge list has M entries over N nodes. An entry's source row and its clamped target are read from a column of
  32-bit positions as a signed integer clamped into the nodes (rowOf); its accumulation target is read as a signed
  integer with no clamping (posOf): the entry is accumulated into node n exactly when that integer is n.

  netK scales the rows of each product by the node factor before they are picked and the accumulated sum by it
  afterwards; netR scales each picked row by the product of the two factors before it is accumulated. They agree
  (LibGcnAgg's law, once per layer) as soon as the clamped target of an accumulated entry is the node it lands on, and
  the node factor is a nonnegative real.
-/
import Idealize.ShloMosaic.Lib.ValueIdx
import proofs.«100301_j47253230191022_2_alg».proof.Proof.LibGcnAgg

noncomputable section

namespace Cert.Net

open Idealize.ShloMosaic Idealize.ShloMosaic.ValueIdx Cert.Gcn
open scoped BigOperators

variable {N M : Nat}

/-- The row a column of positions names for entry e: the position read signed and clamped into the N rows. -/
def rowOf (hN : 0 < N) (idx : IVec ⟨2, ![M, 1]⟩ 32) (e : Fin M) : Fin N :=
  ⟨min (idx (ix2 e (0 : Fin 1))).toInt.toNat (N - 1), by omega⟩

/-- The integer a column of positions names for entry e, not clamped. -/
def posOf (idx : IVec ⟨2, ![M, 1]⟩ 32) (e : Fin M) : Int := (idx (ix2 e (0 : Fin 1))).toInt

section net

variable (gr gc : Fin M → Fin N) (sc : Fin M → Int) (dinv : Fin N → EReal)
variable {K1 K2 D : Nat}

/-- The whole network, rows scaled before they are picked and sums scaled afterwards, clamped below at zero. -/
def netK (x : Fin N → Fin K1 → EReal) (W1 : Fin K1 → Fin K2 → EReal) (b1 : Fin K2 → EReal)
    (W2 : Fin K2 → Fin D → EReal) (b2 : Fin D → EReal) (n : Fin N) (q : Fin D) : EReal :=
  max (outK gr sc dinv x W1 b1 W2 b2 n q) zeroW

/-- The whole network, each picked row scaled by both factors before it is accumulated, clamped below at zero. -/
def netR (x : Fin N → Fin K1 → EReal) (W1 : Fin K1 → Fin K2 → EReal) (b1 : Fin K2 → EReal)
    (W2 : Fin K2 → Fin D → EReal) (b2 : Fin D → EReal) (n : Fin N) (q : Fin D) : EReal :=
  max (outR gr gc sc dinv x W1 b1 W2 b2 n q) zeroW

theorem netK_eq_netR (hgc : ∀ (e : Fin M) (n : Fin N), sc e = (n.val : Int) → gc e = n)
    (hd : ∀ n : Fin N, 0 ≤ dinv n ∧ dinv n ≠ ⊤)
    (x : Fin N → Fin K1 → EReal) (W1 : Fin K1 → Fin K2 → EReal) (b1 : Fin K2 → EReal)
    (W2 : Fin K2 → Fin D → EReal) (b2 : Fin D → EReal) (n : Fin N) (q : Fin D) :
    netK gr sc dinv x W1 b1 W2 b2 n q = netR gr gc sc dinv x W1 b1 W2 b2 n q := by
  unfold netK netR
  rw [outK_eq_outR gr gc sc dinv hgc (fun n => Or.inr (hd n))]

end net

end Cert.Net

end
-- ==== Proof.KRun.lean ====
/-
  The idealized kernel's run, with its result named: every weakly fair execution of the program terminates, nothing
  faulting, with the result buffer holding what the last tiled stage's write-backs leave (the contents at the last
  segment boundary) and the six argument arrays as launched.
-/
import proofs.«100301_j47253230191022_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. The launch over the
    program's eight segments; the last thread state holds every unscoped buffer at the last boundary's contents, which
    is read against the final state. -/
theorem run_last : θ_run defs (onTc (τ := τ) (main (F := F))) ⟨m, fun _ => 0, ρ⟩ (fun r => ∀ c : Dev nD,
      r.2.mem ((c.tc : Thread nD τ).loc main_v49) = W8 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v49 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KV

end
-- ==== Proof.KDefs.lean ====
/-
  The idealized kernel's value as one composed term of its argument arrays.

  The program is three tiled stages with a row gather and an accumulating scatter between them. Each tiled stage works on
  blocks of 1000 node rows and is a function of whole arrays (stage0, stage1, stage2 below, entry by entry):
    stage0 X W d     at (n, q) : (sum over k of X (n, k) * W (k, q)) * d (n, 0)
    stage1 A d b W   at (n, q) : (sum over k of max (d (n, 0) * A (n, k) + b (0, k)) 0 * W (k, q)) * d (n, 0)
    stage2 A d b     at (n, q) : max (d (n, 0) * A (n, q) + b (0, q)) 0
  Between them the host picks the rows of a stage's result along the edge list's sources and accumulates them into the rows
  named by the edge list's targets. The edge list is the second argument's two rows, each followed by every node once (a
  self loop); the node factor d is the guarded reciprocal square root of the number of entries accumulated into the node.
-/
import proofs.«100301_j47253230191022_2_alg».proof.KernelIdeal
import proofs.«100301_j47253230191022_2_alg».proof.Proof.Gen.KernelIdeal
import Idealize.ShloMosaic.Lib.ValueIdx
import Idealize.ShloMosaic.PureOps.Ideal

noncomputable section

namespace Cert.KernelIdeal.KV

open Idealize.ShloMosaic Idealize.ShloMosaic.ValueIdx Cert.KernelIdeal Cert.KernelIdeal.Facts₀
open scoped BigOperators

/-- The float word of zero, as the programs spell it. -/
abbrev zeroW : EReal := Ideal.ofBits .f32 0x00000000#32

/-! ## The three tiled stages as functions of whole arrays -/

/-- The first stage: the rows of X * W scaled by the node factor. -/
def stage0 (X : FVec Ideal S50000x300 .f32) (W : FVec Ideal S300x512 .f32) (d : FVec Ideal S50000x1 .f32) :
    FVec Ideal S50000x512 .bf16 :=
  fun i => (∑ k : Fin 300, X (ix2 (i 0) k) * W (ix2 k (i 1))) * d (ix2 (i 0) (0 : Fin 1))

/-- The second stage: the accumulated rows scaled, biased and clamped below at zero, times W, scaled again. -/
def stage1 (A : FVec Ideal S50000x512 .f32) (d : FVec Ideal S50000x1 .f32) (b : FVec Ideal S1x512 .f32)
    (W : FVec Ideal S512x300 .f32) : FVec Ideal S50000x300 .bf16 :=
  fun i => (∑ k : Fin 512, max (d (ix2 (i 0) (0 : Fin 1)) * A (ix2 (i 0) k) + b (ix2 (0 : Fin 1) k)) zeroW * W (ix2 k (i 1)))
    * d (ix2 (i 0) (0 : Fin 1))

/-- The third stage: the accumulated rows scaled, biased and clamped below at zero. -/
def stage2 (A : FVec Ideal S50000x300 .f32) (d : FVec Ideal S50000x1 .f32) (b : FVec Ideal S1x300 .f32) :
    FVec Ideal S50000x300 .f32 :=
  fun i => max (d (ix2 (i 0) (0 : Fin 1)) * A (ix2 (i 0) (i 1)) + b (ix2 (0 : Fin 1) (i 1))) zeroW

/-! ## The edge list and the node factor, as the host computes them -/

/-- Row r of the edge array followed by every node once. -/
def edgeRow0 (ei : IVec S2x400000 32) : IVec S450000 32 :=
  concatenate S450000 0 [⟨S400000, shapeCast S400000 (extractStridedSlice S1x400000 ![0, 0] ei slices_S2x400000_S1x400000_0_0) shapeCasts_S1x400000_S400000⟩,
    ⟨S50000, iotaInDim S50000 32 0⟩] concatenates_S400000_S50000_S450000_d0

def edgeRow1 (ei : IVec S2x400000 32) : IVec S450000 32 :=
  concatenate S450000 0 [⟨S400000, shapeCast S400000 (extractStridedSlice S1x400000 ![1, 0] ei slices_S2x400000_S1x400000_1_0) shapeCasts_S1x400000_S400000⟩,
    ⟨S50000, iotaInDim S50000 32 0⟩] concatenates_S400000_S50000_S450000_d0

/-- A list of positions as a column, each negative position moved up by the number of nodes first. -/
def normCol (v : IVec S450000 32) : IVec S450000x1 32 :=
  broadcastInDim S450000x1 ![0] bcast_S450000_S450000x1_0
    (select (cmpi .slt v (broadcastInDim S450000 ![] bcast_S_S450000 (constantI S_ 32 0#32)))
      (addi v (broadcastInDim S450000 ![] bcast_S_S450000 (constantI S_ 32 50000#32))) v)

/-- A list of positions as a column, as it is. -/
def rawCol (v : IVec S450000 32) : IVec S450000x1 32 :=
  broadcastInDim S450000x1 ![0] bcast_S450000_S450000x1_0 v

/-- The number of list entries accumulated into each node: ones accumulated into zeros. -/
def degV (ei : IVec S2x400000 32) : FVec Ideal S50000 .f32 :=
  Host.scatterAdd scatter_S50000_S450000x1_S450000_n_0_0_1
    (broadcastInDim S50000 ![] bcast_S_S50000 (constant (F := Ideal) S_ .f32 0x00000000#32))
    (normCol (edgeRow1 ei))
    (broadcastInDim S450000 ![] bcast_S_S450000 (constant (F := Ideal) S_ .f32 0x3F800000#32))

/-- The node factor from a count: where the count is positive, the reciprocal square root of the count raised to at
    least one; elsewhere zero. -/
def factorOf (deg : FVec Ideal S50000 .f32) : FVec Ideal S50000 .f32 :=
  select (cmpf .ogt deg (broadcastInDim S50000 ![] bcast_S_S50000 (constant (F := Ideal) S_ .f32 0x00000000#32)))
    (Host.rsqrt (maximumf deg (broadcastInDim S50000 ![] bcast_S_S50000 (constant (F := Ideal) S_ .f32 0x3F800000#32))))
    (broadcastInDim S50000 ![] bcast_S_S50000 (id (constant (F := Ideal) S_ .f32 0x00000000#32)))

def dinvV (ei : IVec S2x400000 32) : FVec Ideal S50000 .f32 := factorOf (degV ei)

/-- The node factor as a column. -/
def dinvCol (ei : IVec S2x400000 32) : FVec Ideal S50000x1 .f32 :=
  shapeCast S50000x1 (dinvV ei) shapeCasts_S50000_S50000x1

/-! ## The composed value -/

/-- Rows of a 512-wide stage result picked along the sources and accumulated along the targets. -/
def agg512 (ei : IVec S2x400000 32) (H : FVec Ideal S50000x512 .bf16) : FVec Ideal S50000x512 .f32 :=
  Host.scatterAdd scatter_S50000x512_S450000x1_S450000x512_1_0_0_1
    (broadcastInDim S50000x512 ![] bcast_S_S50000x512 (constant (F := Ideal) S_ .f32 0x00000000#32))
    (rawCol (edgeRow1 ei))
    (extf .f32 (Host.gather gather_S50000x512_S450000x1_S450000x512_1_0_n_n_0_1_1512 H (normCol (edgeRow0 ei))) bitsLt_bf16_f32)

/-- The same for a 300-wide stage result. -/
def agg300 (ei : IVec S2x400000 32) (H : FVec Ideal S50000x300 .bf16) : FVec Ideal S50000x300 .f32 :=
  Host.scatterAdd scatter_S50000x300_S450000x1_S450000x300_1_0_0_1
    (broadcastInDim S50000x300 ![] bcast_S_S50000x300 (constant (F := Ideal) S_ .f32 0x00000000#32))
    (rawCol (edgeRow1 ei))
    (extf .f32 (Host.gather gather_S50000x300_S450000x1_S450000x300_1_0_n_n_0_1_1300 H (normCol (edgeRow0 ei))) bitsLt_bf16_f32)

/-- The kernel's result array as a function of its six argument arrays. -/
def kval (x : FVec Ideal S50000x300 .f32) (ei : IVec S2x400000 32) (W1 : FVec Ideal S300x512 .f32) (b1 : FVec Ideal S512 .f32)
    (W2 : FVec Ideal S512x300 .f32) (b2 : FVec Ideal S300 .f32) : FVec Ideal S50000x300 .f32 :=
  stage2 (agg300 ei (stage1 (agg512 ei (stage0 x W1 (dinvCol ei))) (dinvCol ei) (shapeCast S1x512 b1 shapeCasts_S512_S1x512) W2))
    (dinvCol ei) (shapeCast S1x300 b2 shapeCasts_S300_S1x300)

end Cert.KernelIdeal.KV

end
-- ==== Proof.LibHostLine.lean ====
/-
  A straight line of host operations each of which writes one buffer of its own.

  When the operations of a line write pairwise different buffers, what a buffer holds after the line (or after a
  prefix of it) is decided locally: a buffer nobody writes keeps its contents (`after_take_unwritten`), and the
  buffer written at position `n` holds the result of operation `n` over the contents just before it, whatever
  follows (`after_take_at`). The corollaries name the four builders a printed reference uses, so that the
  operation at a literal position is recovered by unification (`hop` by `rfl`) and the statement speaks of its
  function and operand buffers directly.
-/
import Idealize.ShloMosaic.Lib.StableHlo.Run

noncomputable section

namespace Idealize.ShloMosaic.StableHlo

open Idealize.ShloMosaic.TcCoe

variable {τ : Topo} {sig : RefSig} {Val : EltTy → Type}

/-- Running two lines one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- The operations `ops` write the buffers `W`, one each, in order. -/
def WritesOne (ops : List (HloOp τ sig Val)) (W : List (Ref sig .tc)) : Prop :=
  List.Forall₂ (fun op y => op.writes = {Proc.devRef (τ := τ) .tc y}) ops W

theorem WritesOne.append {l₁ l₂ : List (HloOp τ sig Val)} {W₁ W₂ : List (Ref sig .tc)} (h₁ : WritesOne l₁ W₁)
    (h₂ : WritesOne l₂ W₂) : WritesOne (l₁ ++ l₂) (W₁ ++ W₂) := by
  induction h₁ with
  | nil => exact h₂
  | cons hw _ ih => exact List.Forall₂.cons hw ih

theorem WritesOne.take {ops : List (HloOp τ sig Val)} {W : List (Ref sig .tc)} (h : WritesOne ops W) (N : Nat) :
    WritesOne (ops.take N) (W.take N) := by
  induction h generalizing N with
  | nil => simp only [List.take_nil]; exact List.Forall₂.nil
  | cons hw _ ih =>
    cases N with
    | zero => exact List.Forall₂.nil
    | succ N => exact List.Forall₂.cons hw (ih N)

theorem WritesOne.length_eq {ops : List (HloOp τ sig Val)} {W : List (Ref sig .tc)} (h : WritesOne ops W) :
    ops.length = W.length := List.Forall₂.length_eq h

/-- A buffer that is none of the written ones keeps its contents through the line. -/
theorem after_unwritten {ops : List (HloOp τ sig Val)} {W : List (Ref sig .tc)} (h : WritesOne ops W) {b : Ref sig .tc}
    (hb : b ∉ W) (V : Valuation τ sig Val) : after ops V (Proc.devRef .tc b) = V (Proc.devRef .tc b) := by
  induction h generalizing V with
  | nil => rfl
  | @cons op y ops W hw _ ih =>
    have hby : b ≠ y := fun e => hb (e ▸ List.mem_cons_self)
    rw [after_cons, ih (fun hm => hb (List.mem_cons_of_mem _ hm)),
      op.result_of_not_mem V (by rw [hw, Finset.mem_singleton]; exact fun e => hby (Proc.devRef_injective _ e))]

/-- And through any prefix of it. -/
theorem after_take_unwritten {ops : List (HloOp τ sig Val)} {W : List (Ref sig .tc)} (h : WritesOne ops W) {b : Ref sig .tc}
    (hb : b ∉ W) (V : Valuation τ sig Val) (N : Nat) :
    after (ops.take N) V (Proc.devRef .tc b) = V (Proc.devRef .tc b) :=
  after_unwritten (h.take N) (fun hm => hb (List.mem_of_mem_take hm)) V

/-- **The buffer written at position `n`**, after any prefix that includes that position, holds operation `n`'s
    result over the contents just before it: no later operation writes it again. -/
theorem after_take_at {ops : List (HloOp τ sig Val)} {W : List (Ref sig .tc)} (h : WritesOne ops W) (hnd : W.Nodup)
    (V : Valuation τ sig Val) (n N : Nat) (hnN : n < N) (hn : n < ops.length) (hn' : n < W.length) :
    after (ops.take N) V (Proc.devRef .tc W[n]) = (ops[n]).result (after (ops.take n) V) (Proc.devRef .tc W[n]) := by
  induction h generalizing V n N with
  | nil => exact absurd hn (Nat.not_lt_zero _)
  | @cons op y ops W hw hrest ih =>
    obtain ⟨N, rfl⟩ : ∃ N', N = N' + 1 := ⟨N - 1, by omega⟩
    have hy : y ∉ W := (List.nodup_cons.1 hnd).1
    cases n with
    | zero =>
      show after (ops.take N) (op.result V) (Proc.devRef .tc y) = op.result V (Proc.devRef .tc y)
      exact after_take_unwritten hrest hy _ N
    | succ n =>
      have hn0 : n < ops.length := by simpa using hn
      have hn0' : n < W.length := by simpa using hn'
      show after (ops.take N) (op.result V) (Proc.devRef .tc W[n]) = (ops[n]).result (after (ops.take n) (op.result V)) (Proc.devRef .tc W[n])
      exact ih (List.nodup_cons.1 hnd).2 (op.result V) n N (by omega) hn0 hn0'

section Builders

variable {ops : List (HloOp τ sig Val)} {W : List (Ref sig .tc)}

/-- Position `n` is a constant: its buffer holds the constant. -/
theorem after_take_nullary (h : WritesOne ops W) (hnd : W.Nodup) (V : Valuation τ sig Val) (n N : Nat) (hnN : n < N)
    (hn : n < ops.length) (hn' : n < W.length) (y : Ref sig .tc) (v : y.ty.Contents Val) (hy)
    (hop : ops[n] = nullary y v hy) (hW : W[n] = y) :
    after (ops.take N) V (Proc.devRef .tc y) = v := by
  have e := after_take_at h hnd V n N hnN hn hn'
  rw [hop, hW] at e
  exact e.trans (nullary_result y v hy _)

/-- Position `n` applies `f` to the buffer `x`: its buffer holds `f` of what `x` held just before. -/
theorem after_take_unary (h : WritesOne ops W) (hnd : W.Nodup) (V : Valuation τ sig Val) (n N : Nat) (hnN : n < N)
    (hn : n < ops.length) (hn' : n < W.length) (x y : Ref sig .tc) (f : x.ty.Contents Val → y.ty.Contents Val) (hx hy)
    (hop : ops[n] = unary x y f hx hy) (hW : W[n] = y) :
    after (ops.take N) V (Proc.devRef .tc y) = f (after (ops.take n) V (Proc.devRef .tc x)) := by
  have e := after_take_at h hnd V n N hnN hn hn'
  rw [hop, hW] at e
  exact e.trans (unary_result x y f hx hy _)

/-- Position `n` applies `f` to the buffers `a` and `b`. -/
theorem after_take_binary (h : WritesOne ops W) (hnd : W.Nodup) (V : Valuation τ sig Val) (n N : Nat) (hnN : n < N)
    (hn : n < ops.length) (hn' : n < W.length) (a b y : Ref sig .tc)
    (f : a.ty.Contents Val → b.ty.Contents Val → y.ty.Contents Val) (ha hb hy)
    (hop : ops[n] = binary a b y f ha hb hy) (hW : W[n] = y) :
    after (ops.take N) V (Proc.devRef .tc y)
      = f (after (ops.take n) V (Proc.devRef .tc a)) (after (ops.take n) V (Proc.devRef .tc b)) := by
  have e := after_take_at h hnd V n N hnN hn hn'
  rw [hop, hW] at e
  exact e.trans (binary_result a b y f ha hb hy _)

/-- Position `n` applies `f` to a family of buffers. -/
theorem after_take_nary (h : WritesOne ops W) (hnd : W.Nodup) (V : Valuation τ sig Val) (n N : Nat) (hnN : n < N)
    (hn : n < ops.length) (hn' : n < W.length) {k : Nat} (xs : Fin k → Ref sig .tc) (y : Ref sig .tc)
    (f : ((i : Fin k) → (xs i).ty.Contents Val) → y.ty.Contents Val) (hxs hy)
    (hop : ops[n] = nary xs y f hxs hy) (hW : W[n] = y) :
    after (ops.take N) V (Proc.devRef .tc y) = f (fun i => after (ops.take n) V (Proc.devRef .tc (xs i))) := by
  have e := after_take_at h hnd V n N hnN hn hn'
  rw [hop, hW] at e
  exact e.trans (nary_result xs y f hxs hy _)

end Builders

end Idealize.ShloMosaic.StableHlo

end
-- ==== Proof.KFactor.lean ====
/-
  The node factor column the tiled stages read, as the host computes it before the first stage.

  Three host stretches run before the first tiled stage. Of the first stretch's 28 operations, the first seven build
  the row of targets (row 1 of the edge array followed by every node once); the next thirteen count, for each node,
  how many entries of that row name it (ones accumulated into zeros along the row, a negative entry moved up by the
  number of nodes first); the last eight compare the count with zero, take the reciprocal square root of the count
  raised to at least one, and write a zero. The second stretch, an inlined call, picks node by node the reciprocal
  square root where the count is positive and the zero elsewhere; the third lays the picked vector out as a column.

  Each part is read on its own, at arbitrary contents of the buffers it starts from, so that a buffer with several
  readers is opened once; composed from the launch memory the column is KV.dinvCol of the edge array.
-/
import proofs.«100301_j47253230191022_2_alg».proof.Proof.Gen.KernelIdeal.Frame
import proofs.«100301_j47253230191022_2_alg».proof.Proof.KDefs
import proofs.«100301_j47253230191022_2_alg».proof.Proof.LibHostLine

set_option maxRecDepth 16384

noncomputable section

namespace Cert.KernelIdeal.KV

open Cert.KernelIdeal Cert.KernelIdeal.Gen
open Idealize.ShloMosaic Idealize.ShloMosaic.TcCoe Idealize.ShloMosaic.StableHlo Idealize.SL.Sem

/-- A line of host operations run in three consecutive parts. -/
theorem after_three {τ : Topo} {sig : RefSig} {Val : EltTy → Type} (ops : List (HloOp τ sig Val)) (a b : Nat)
    (V : Valuation τ sig Val) :
    after ops V = after ((ops.drop a).drop b) (after ((ops.drop a).take b) (after (ops.take a) V)) := by
  rw [← after_append, ← after_append, List.take_append_drop, List.take_append_drop]

section line

variable (V : Valuation τ sig (Elt Ideal))

/-- The first seven operations build the row of targets: row 1 of the edge array followed by every node once. -/
theorem line_targets : after ((hostOps0 (F := Ideal)).take 7) V (Proc.devRef .tc main_v6)
    = edgeRow1 (V (Proc.devRef .tc main_arg1)) := by
  unfold edgeRow1
  simp only [hostOps0, List.take_succ_cons, List.take_zero]
  after_results
  rfl

/-- The next thirteen count, for each node, the entries of the row of targets that name it: ones accumulated into
    zeros along the row (negative entries moved up by the number of nodes first). -/
theorem line_count : after (((hostOps0 (F := Ideal)).drop 7).take 13) V (Proc.devRef .tc main_v15)
    = Host.scatterAdd scatter_S50000_S450000x1_S450000_n_0_0_1
        (broadcastInDim S50000 ![] Facts₀.bcast_S_S50000 (constant (F := Ideal) S_ .f32 0x00000000#32))
        (normCol (V (Proc.devRef .tc main_v6)))
        (broadcastInDim S450000 ![] Facts₀.bcast_S_S450000 (constant (F := Ideal) S_ .f32 0x3F800000#32)) := by
  unfold normCol
  simp only [hostOps0, List.drop_succ_cons, List.drop_zero, List.take_succ_cons, List.take_zero]
  after_results

/-- The last eight compare the count with zero, take the reciprocal square root of the count raised to at least
    one, and write the zero the comparison falls back on. -/
theorem line_positive : after (((hostOps0 (F := Ideal)).drop 7).drop 13) V (Proc.devRef .tc main_v17)
    = cmpf .ogt (V (Proc.devRef .tc main_v15))
        (broadcastInDim S50000 ![] Facts₀.bcast_S_S50000 (constant (F := Ideal) S_ .f32 0x00000000#32)) := by
  simp only [hostOps0, List.drop_succ_cons, List.drop_zero]
  after_results

theorem line_rsqrt : after (((hostOps0 (F := Ideal)).drop 7).drop 13) V (Proc.devRef .tc main_v20)
    = Host.rsqrt (maximumf (V (Proc.devRef .tc main_v15))
        (broadcastInDim S50000 ![] Facts₀.bcast_S_S50000 (constant (F := Ideal) S_ .f32 0x3F800000#32))) := by
  simp only [hostOps0, List.drop_succ_cons, List.drop_zero]
  after_results

theorem line_zero : after (((hostOps0 (F := Ideal)).drop 7).drop 13) V (Proc.devRef .tc main_cst_4)
    = constant (F := Ideal) S_ .f32 0x00000000#32 := by
  simp only [hostOps0, List.drop_succ_cons, List.drop_zero]
  after_results

/-- The inlined call picks, node by node, the reciprocal square root where the count is positive and zero elsewhere. -/
theorem line_pick : after (hostOps0_1 (F := Ideal)) V (Proc.devRef .tc main_v21)
    = select (s := S50000) (V (Proc.devRef .tc main_v17) : IVec S50000 1)
        (V (Proc.devRef .tc main_v20) : FVec Ideal S50000 .f32)
        (broadcastInDim S50000 ![] Facts₀.bcast_S_S50000 (id (V (Proc.devRef .tc main_cst_4) : FVec Ideal S_ .f32))) := by
  after_results
  rfl

/-- The last stretch lays the picked vector out as a column. -/
theorem line_column : after (hostOps0_2 (F := Ideal)) V (Proc.devRef .tc main_v22)
    = shapeCast S50000x1 (V (Proc.devRef .tc main_v21) : FVec Ideal S50000 .f32) Facts₀.shapeCasts_S50000_S50000x1 := by
  after_results
  rfl

end line

variable (m : (ℓ : Loc nD τ sig) → Buf (Elt Ideal) ℓ) (ρ : Dev nD → PrngReg) (c : Dev nD)

/-- The factor column the tiled stages read is the node factor of the edge array, as a column. -/
theorem pre_factor : W3 m ρ c (Proc.devRef .tc main_v22) = dinvCol (m ((c.tc : Thread nD τ).loc main_arg1)) := by
  show after hostOps0_2 (after hostOps0_1 (after hostOps0 (W0 m ρ c))) (Proc.devRef .tc main_v22) = _
  rw [line_column, line_pick, after_three hostOps0 7 13 (W0 m ρ c), line_positive, line_rsqrt, line_zero, line_count,
    line_targets]
  unfold dinvCol dinvV factorOf degV
  rfl

end Cert.KernelIdeal.KV

end
-- ==== Proof.KHost.lean ====
/-
  What the host stretches of the idealized kernel leave in the buffers the tiled stages read.

  Before the first stage the host builds the edge list's two rows (each followed by every node once), the node factor
  as a column, and the two bias vectors as rows. Between two stages it picks the rows of the earlier stage's result along
  the sources and accumulates them along the targets; every other buffer a later stage reads is left as it was.
-/
import proofs.«100301_j47253230191022_2_alg».proof.Proof.Gen.KernelIdeal.Frame
import proofs.«100301_j47253230191022_2_alg».proof.Proof.KDefs

set_option maxRecDepth 16384

noncomputable section

namespace Cert.KernelIdeal.KV

open Cert.KernelIdeal Cert.KernelIdeal.Gen Cert.KernelIdeal.Facts₀
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before the first stage -/

theorem pre_src : W3 m ρ c (Proc.devRef .tc main_v3) = edgeRow0 (m ((c.tc : Thread nD τ).loc main_arg1)) := by
  show after hostOps0_2 (after hostOps0_1 (after hostOps0 (W0 m ρ c))) (Proc.devRef .tc main_v3) = _
  after_results
  rfl

theorem pre_dst : W3 m ρ c (Proc.devRef .tc main_v6) = edgeRow1 (m ((c.tc : Thread nD τ).loc main_arg1)) := by
  show after hostOps0_2 (after hostOps0_1 (after hostOps0 (W0 m ρ c))) (Proc.devRef .tc main_v6) = _
  after_results
  rfl

theorem pre_b1 : W3 m ρ c (Proc.devRef .tc main_v23)
    = shapeCast S1x512 (m ((c.tc : Thread nD τ).loc main_arg3)) Facts₀.shapeCasts_S512_S1x512 := by
  show after hostOps0_2 (after hostOps0_1 (after hostOps0 (W0 m ρ c))) (Proc.devRef .tc main_v23) = _
  after_results
  rfl

theorem pre_b2 : W3 m ρ c (Proc.devRef .tc main_v24)
    = shapeCast S1x300 (m ((c.tc : Thread nD τ).loc main_arg5)) Facts₀.shapeCasts_S300_S1x300 := by
  show after hostOps0_2 (after hostOps0_1 (after hostOps0 (W0 m ρ c))) (Proc.devRef .tc main_v24) = _
  after_results
  rfl

theorem pre_x : W3 m ρ c (Proc.devRef .tc main_arg0) = m ((c.tc : Thread nD τ).loc main_arg0) := by
  show after hostOps0_2 (after hostOps0_1 (after hostOps0 (W0 m ρ c))) (Proc.devRef .tc main_arg0) = _
  after_results

theorem pre_W1 : W3 m ρ c (Proc.devRef .tc main_arg2) = m ((c.tc : Thread nD τ).loc main_arg2) := by
  show after hostOps0_2 (after hostOps0_1 (after hostOps0 (W0 m ρ c))) (Proc.devRef .tc main_arg2) = _
  after_results

theorem pre_W2 : W3 m ρ c (Proc.devRef .tc main_arg4) = m ((c.tc : Thread nD τ).loc main_arg4) := by
  show after hostOps0_2 (after hostOps0_1 (after hostOps0 (W0 m ρ c))) (Proc.devRef .tc main_arg4) = _
  after_results

/-! ## Between the stages: rows picked along the sources and accumulated along the targets -/

section mid

variable (V : Valuation τ sig (Elt Ideal))

theorem mid1 : after hostOps1 V (Proc.devRef .tc main_v36)
    = Host.scatterAdd scatter_S50000x512_S450000x1_S450000x512_1_0_0_1
        (broadcastInDim S50000x512 ![] Facts₀.bcast_S_S50000x512 (constant (F := Ideal) S_ .f32 0x00000000#32))
        (rawCol (V (Proc.devRef .tc main_v6)))
        (extf .f32 (Host.gather gather_S50000x512_S450000x1_S450000x512_1_0_n_n_0_1_1512 (V (Proc.devRef .tc main_v25))
          (normCol (V (Proc.devRef .tc main_v3)))) Facts₀.bitsLt_bf16_f32) := by
  unfold rawCol normCol
  after_results

theorem mid2 : after hostOps2 V (Proc.devRef .tc main_v48)
    = Host.scatterAdd scatter_S50000x300_S450000x1_S450000x300_1_0_0_1
        (broadcastInDim S50000x300 ![] Facts₀.bcast_S_S50000x300 (constant (F := Ideal) S_ .f32 0x00000000#32))
        (rawCol (V (Proc.devRef .tc main_v6)))
        (extf .f32 (Host.gather gather_S50000x300_S450000x1_S450000x300_1_0_n_n_0_1_1300 (V (Proc.devRef .tc main_v37))
          (normCol (V (Proc.devRef .tc main_v3)))) Facts₀.bitsLt_bf16_f32) := by
  unfold rawCol normCol
  after_results

theorem mid1_keep_main_v3 : after hostOps1 V (Proc.devRef .tc main_v3) = V (Proc.devRef .tc main_v3) := by
  after_results
theorem mid1_keep_main_v6 : after hostOps1 V (Proc.devRef .tc main_v6) = V (Proc.devRef .tc main_v6) := by
  after_results
theorem mid1_keep_main_v22 : after hostOps1 V (Proc.devRef .tc main_v22) = V (Proc.devRef .tc main_v22) := by
  after_results
theorem mid1_keep_main_v23 : after hostOps1 V (Proc.devRef .tc main_v23) = V (Proc.devRef .tc main_v23) := by
  after_results
theorem mid1_keep_main_v24 : after hostOps1 V (Proc.devRef .tc main_v24) = V (Proc.devRef .tc main_v24) := by
  after_results
theorem mid1_keep_main_arg4 : after hostOps1 V (Proc.devRef .tc main_arg4) = V (Proc.devRef .tc main_arg4) := by
  after_results
theorem mid2_keep_main_v22 : after hostOps2 V (Proc.devRef .tc main_v22) = V (Proc.devRef .tc main_v22) := by
  after_results
theorem mid2_keep_main_v24 : after hostOps2 V (Proc.devRef .tc main_v24) = V (Proc.devRef .tc main_v24) := by
  after_results
theorem mid2_keep_main_v3 : after hostOps2 V (Proc.devRef .tc main_v3) = V (Proc.devRef .tc main_v3) := by
  after_results
theorem mid2_keep_main_v6 : after hostOps2 V (Proc.devRef .tc main_v6) = V (Proc.devRef .tc main_v6) := by
  after_results

end mid

end Cert.KernelIdeal.KV

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.Region0.lean ====
/-
  The first tiled stage of the idealized kernel, read as one function of whole arrays.

  The stage walks 50 grid points. Point t holds rows 1000 t … 1000 t + 999 of X and of the factor column d and all of W,
  and leaves in its result block, at (p, q), the value (sum over k of X (1000 t + p, k) * W (k, q)) * d (1000 t + p, 0):
  rounding to the narrower float type is the identity at the ideal values, the matrix product into a zero accumulator is
  the plain sum over the contracted coordinate, and the factor column spread over the 512 columns reads its own row's
  entry. Point t writes its block back to rows 1000 t … 1000 t + 999 of the result array; these row blocks cover the
  array (row n belongs to point n / 1000). So after the last point the result array is KV.stage0 of the three arrays the
  stage found, whatever their contents.
-/
import proofs.«100301_j47253230191022_2_alg».proof.Proof.Gen.KernelIdeal.Frame
import proofs.«100301_j47253230191022_2_alg».proof.Proof.KDefs
import Idealize.ShloMosaic.Lib.ValueIdx
import Idealize.ShloMosaic.Lib.Pipeline.Value
import proofs.«100301_j47253230191022_2_alg».proof.Proof.LibDot
import proofs.«100301_j47253230191022_2_alg».proof.Proof.LibKeepdims

noncomputable section

namespace Cert.KernelIdeal.R0

open Cert.KernelIdeal Cert.KernelIdeal.Gen Cert.KernelIdeal.Facts₀ Idealize.ShloMosaic Idealize.ShloMosaic.ValueIdx
open Idealize.ShloMosaic.TcCoe Idealize.SL.Sem
open Idealize.ShloMosaic.Pipeline (Dat)
open scoped BigOperators

/-! ## The body at an entry of the block -/

/-- The offsets of a whole-block access, all zero. -/
theorem zeroOff : (![0, 0] : Fin 2 → Nat) = fun _ => 0 := funext fun a => by fin_cases a <;> rfl

set_option maxHeartbeats 400000 in
/-- The body at an entry of the block: the row of the X block times the column of W, scaled by the row's factor. -/
theorem body0 (x0 : Vec Ideal S1000x300 .f32) (x1 : Vec Ideal S300x512 .f32) (x2 : Vec Ideal S1000x1 .f32) (p : Fin 1000) (q : Fin 512) :
    Gen.out0_3 (F := Ideal) x0 x1 x2 (ix2 p q) = (∑ k : Fin 300, x0 (ix2 p k) * x1 (ix2 k q)) * x2 (ix2 p (0 : Fin 1)) := by
  unfold Gen.out0_3
  rw [View.canon_unit_zero zeroOff]
  simp only [View.ld_unit_zero (S := S1000x300) zeroOff, View.ld_unit_zero (S := S300x512) zeroOff, View.ld_unit_zero (S := S1000x1) zeroOff]
  unfold Gen.k0_pay1
  refine (truncf_apply (φ := .f32) (ψ := .bf16) _ Gen.bitsLt_bf16_f32 _).trans ?_
  refine (mulf_apply (φ := .f32) _ _ _).trans ?_
  refine congrArg₂ (· * ·) ?_ ?_
  · exact Cert.LibDot.matmul_zero_apply (m := 1000) (k := 300) (n := 512) Gen.dot_S1000x300_S300x512_S1000x512_1_0_0_1_n_n_wf none
      (truncf .bf16 x0 Gen.bitsLt_bf16_f32) (truncf .bf16 x1 Gen.bitsLt_bf16_f32) p q
  · rw [shapeCast_self]
    exact broadcastTo_a1_ab_apply x2 Gen.broadcasts_S1000x1_S1000x512 p q

/-! ## From the blocks to the array -/

/-- The windows are the call's operands in order: X, W, the factor column, and the result. -/
theorem arr0 : Pipeline.arrRef spec0 0 = main_arg0 := rfl
theorem arr1 : Pipeline.arrRef spec0 1 = main_arg2 := rfl
theorem arr2 : Pipeline.arrRef spec0 2 = main_v22 := rfl

/-- The printed index maps over the grid: point t reads row block t of X and of the factor column and all of W, and
    writes row block t of the result. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

set_option maxHeartbeats 400000 in
/-- Entry (p, k) of the X block at point t is entry (1000 t + p, k) of X. -/
theorem blockX (c : Dev nD) (t : Fin cfg0.N) (p : Fin 1000) (k : Fin 300) (n : Fin 50000) (hn : n.val = t.val * 1000 + p.val) :
    (Gen.iblk0 V c 0 t : Vec Ideal S1000x300 .f32) (ix2 p k) = (V c main_arg0 : FVec Ideal S50000x300 .f32) (ix2 n k) := by
  obtain ⟨e0, e1, -⟩ := index_facts t
  unfold Gen.iblk0
  rw [View.read_apply]
  show V c main_arg0 (((cfg0.win 0).blk t).view.emb (ix2 p k)) = V c main_arg0 (ix2 n k)
  refine congrArg (V c main_arg0) ?_
  funext a; apply Fin.ext
  match a with
  | ⟨0, _⟩ => show win0_0.index t (0 : Fin 2) * 1000 + 1 * p.val = n.val; rw [e0, hn]; omega
  | ⟨1, _⟩ => show win0_0.index t (1 : Fin 2) * 300 + 1 * k.val = k.val; rw [e1]; omega

set_option maxHeartbeats 400000 in
/-- The W block at every point is W. -/
theorem blockW (c : Dev nD) (t : Fin cfg0.N) (k : Fin 300) (q : Fin 512) :
    (Gen.iblk0 V c 1 t : Vec Ideal S300x512 .f32) (ix2 k q) = (V c main_arg2 : FVec Ideal S300x512 .f32) (ix2 k q) := by
  obtain ⟨-, -, e0, e1, -⟩ := index_facts t
  unfold Gen.iblk0
  rw [View.read_apply]
  show V c main_arg2 (((cfg0.win 1).blk t).view.emb (ix2 k q)) = V c main_arg2 (ix2 k q)
  refine congrArg (V c main_arg2) ?_
  funext a; apply Fin.ext
  match a with
  | ⟨0, _⟩ => show win0_1.index t (0 : Fin 2) * 300 + 1 * k.val = k.val; rw [e0]; omega
  | ⟨1, _⟩ => show win0_1.index t (1 : Fin 2) * 512 + 1 * q.val = q.val; rw [e1]; omega

set_option maxHeartbeats 400000 in
/-- Entry (p, 0) of the factor block at point t is entry (1000 t + p, 0) of the factor column. -/
theorem blockD (c : Dev nD) (t : Fin cfg0.N) (p : Fin 1000) (n : Fin 50000) (hn : n.val = t.val * 1000 + p.val) :
    (Gen.iblk0 V c 2 t : Vec Ideal S1000x1 .f32) (ix2 p (0 : Fin 1)) = (V c main_v22 : FVec Ideal S50000x1 .f32) (ix2 n (0 : Fin 1)) := by
  obtain ⟨-, -, -, -, e0, e1, -⟩ := index_facts t
  unfold Gen.iblk0
  rw [View.read_apply]
  show V c main_v22 (((cfg0.win 2).blk t).view.emb (ix2 p (0 : Fin 1))) = V c main_v22 (ix2 n (0 : Fin 1))
  refine congrArg (V c main_v22) ?_
  funext a; apply Fin.ext
  match a with
  | ⟨0, _⟩ => show win0_2.index t (0 : Fin 2) * 1000 + 1 * p.val = n.val; rw [e0, hn]; omega
  | ⟨1, _⟩ => show win0_2.index t (1 : Fin 2) * 1 + 1 * 0 = 0; rw [e1]

set_option maxHeartbeats 400000 in
/-- What point t writes back is row block t of the first stage of the whole arrays. -/
theorem flushed0 (c : Dev nD) (t : Fin cfg0.N) :
    (Gen.dat0 (F := Ideal) V c).flushed 3 t = ((cfg0.win 3).blk t).view.read (Elt Ideal) (KV.stage0 (V c main_arg0) (V c main_arg2) (V c main_v22)) := by
  show (cfg0.win 3).cut (grid0.coords t) ((Gen.dat0 V c).after 3 t) = _
  rw [Gen.after0_3]
  funext j
  obtain ⟨p, q, rfl⟩ : ∃ (p : Fin 1000) (q : Fin 512), j = ix2 p q := ⟨j 0, j 1, eq_ix2 j⟩
  obtain ⟨-, -, -, -, -, -, e0, e1⟩ := index_facts t
  show Gen.out0_3 (Gen.iblk0 V c 0 t) (Gen.iblk0 V c 1 t) (Gen.iblk0 V c 2 t) (ix2 p q)
    = KV.stage0 (V c main_arg0) (V c main_arg2) (V c main_v22) (((cfg0.win 3).blk t).view.emb (ix2 p q))
  refine (body0 (Gen.iblk0 V c 0 t) (Gen.iblk0 V c 1 t) (Gen.iblk0 V c 2 t) p q).trans ?_
  have h0 : ((((cfg0.win 3).blk t).view.emb (ix2 p q)) (0 : Fin 2)).val = t.val * 1000 + p.val := by
    show win0_3.index t (0 : Fin 2) * 1000 + 1 * p.val = _; rw [e0]; omega
  have h1 : (((cfg0.win 3).blk t).view.emb (ix2 p q)) (1 : Fin 2) = q := by
    apply Fin.ext
    show win0_3.index t (1 : Fin 2) * 512 + 1 * q.val = _; rw [e1]; omega
  refine congrArg₂ (· * ·) (Finset.sum_congr rfl fun k _ => congrArg₂ (· * ·) ?_ ?_) ?_
  · exact blockX V c t p k _ h0
  · exact (blockW V c t k q).trans (congrArg (fun z => (V c main_arg2 : FVec Ideal S300x512 .f32) (ix2 k z)) h1.symm)
  · exact blockD V c t p _ h0

/-- An entry of the result array is in point t's block when each coordinate is in the block's range on its axis. -/
theorem mem_block (t : Fin cfg0.N) (i : S50000x512.Idx) :
    i ∈ ((cfg0.win 3).blk t).view.set ↔ ∀ a : Fin 2, win0_3.index t a * S1000x512.size a ≤ (i a).val ∧ (i a).val < win0_3.index t a * S1000x512.size a + S1000x512.size a := by
  show i ∈ ((View.whole main_v25).slice (win0_3.rect t)).set ↔ _
  rw [View.set_slice_whole, Rect.mem_set_unit]
  exact Iff.rfl

set_option maxHeartbeats 400000 in
/-- Every entry of the result array is written back by some point: row n by point n / 1000. -/
theorem covered (i : S50000x512.Idx) : ∃ t : Fin cfg0.N, (cfg0.win 3).flush t = true ∧ i ∈ ((cfg0.win 3).blk t).view.set := by
  have hi0 : (i 0).val < 50000 := (i 0).isLt
  have hi1 : (i 1).val < 512 := (i 1).isLt
  have hN : cfg0.N = 50 := N_0
  obtain ⟨t, ht⟩ : ∃ t : Fin cfg0.N, t.val = (i 0).val / 1000 := ⟨⟨(i 0).val / 1000, by omega⟩, rfl⟩
  obtain ⟨-, -, -, -, -, -, e0, e1⟩ := index_facts t
  refine ⟨t, flush0_3 t, ?_⟩
  rw [mem_block]
  intro a
  match a with
  | ⟨0, _⟩ =>
    show win0_3.index t (0 : Fin 2) * 1000 ≤ (i 0).val ∧ (i 0).val < win0_3.index t (0 : Fin 2) * 1000 + 1000
    rw [e0, ht]; omega
  | ⟨1, _⟩ =>
    show win0_3.index t (1 : Fin 2) * 512 ≤ (i 1).val ∧ (i 1).val < win0_3.index t (1 : Fin 2) * 512 + 512
    rw [e1]; omega

/-- The result array after the last point is the first stage of the arrays the region found. -/
theorem final0 (c : Dev nD) :
    (Gen.dat0 (F := Ideal) V c).arrAt 3 cfg0.N = KV.stage0 (V c main_arg0) (V c main_arg2) (V c main_v22) :=
  (Gen.dat0 (F := Ideal) V c).arrAt_eq_of_cover 3 (KV.stage0 (V c main_arg0) (V c main_arg2) (V c main_v22))
    (fun t _ => flushed0 V c t) covered

end Cert.KernelIdeal.R0

end
-- ==== Proof.Region1.lean ====
/-
  The second tiled stage of the idealized kernel, as a function of whole arrays.

  The stage runs over 50 points; point t works on the node rows 1000 t … 1000 t + 999. It reads the block of those
  rows of the accumulated array A (1000 × 512) and of the factor column d (1000 × 1), the bias row b (1 × 512) whole
  and the matrix W (512 × 300) whole, and writes the block of the same rows of the result (1000 × 300). Entry (p, q)
  of the block it writes is

      (sum over k < 512 of max (d (p, 0) * A (p, k) + b (0, k)) 0 * W (k, q)) * d (p, 0):

  each row of A is scaled by its node factor, the bias row is added, the result is clamped below at zero, multiplied
  by W (a plain sum over the inner coordinate, accumulated from zero), and the row of the product is scaled by the
  node factor again; at the ideal values the roundings to the narrower float type are the identity.

  Every input block is read where the output block's rows say: entry (p, k) of A's block at point t is entry
  (1000 t + p, k) of A, likewise for d, and the blocks of b and W are the arrays themselves. So what point t writes
  back is block t of the one array KV.stage1 A d b W, and since row n lies in the block of point n / 1000, the 50
  blocks fill the result array: after the stage it is KV.stage1 of the arrays the stage found on entry, whatever
  they were.
-/
import proofs.«100301_j47253230191022_2_alg».proof.Proof.Gen.KernelIdeal.Frame
import proofs.«100301_j47253230191022_2_alg».proof.Proof.KDefs
import proofs.«100301_j47253230191022_2_alg».proof.Proof.LibDot
import proofs.«100301_j47253230191022_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.R1

open Cert.KernelIdeal Cert.KernelIdeal.Gen Cert.KernelIdeal.Facts₀ Idealize.ShloMosaic Idealize.ShloMosaic.ValueIdx
open Idealize.ShloMosaic.TcCoe Idealize.SL.Sem
open Idealize.ShloMosaic.Pipeline (Dat)
open scoped BigOperators

/-! ## One block's arithmetic -/

/-- The zero offsets of a whole-block access, as a constant function. -/
theorem zeros2 : (![0, 0] : Fin 2 → Nat) = fun _ => 0 := funext fun a => by fin_cases a <;> rfl

/-- The arithmetic of one block, entry by entry: the block of accumulated rows is scaled row by row by the factor
    column, the bias row is added to every row, the result is clamped below at zero, multiplied by all of W (a plain
    sum over the 512 inner coordinates, the product accumulating from zero), and each row of the product is scaled
    by the factor column again. Roundings are the identity at the ideal values. -/
theorem pay1 (x0 : Vec Ideal S1000x512 .f32) (x1 : Vec Ideal S1000x1 .f32) (x2 : Vec Ideal S1x512 .f32)
    (x3 : Vec Ideal S512x300 .f32) (p : Fin 1000) (q : Fin 300) :
    Gen.k1_pay1 (F := Ideal) x0 x1 x2 x3 (ix2 p q)
      = (∑ k : Fin 512, max (x1 (ix2 p (0 : Fin 1)) * x0 (ix2 p k) + x2 (ix2 (0 : Fin 1) k)) KV.zeroW * x3 (ix2 k q))
        * x1 (ix2 p (0 : Fin 1)) := by
  unfold Gen.k1_pay1
  simp only [shapeCast_self]
  refine Eq.trans (truncf_apply (φ := FTy.f32) (ψ := FTy.bf16) _ Gen.bitsLt_bf16_f32 (ix2 p q)) ?_
  refine Eq.trans (mulf_apply (φ := FTy.f32) _ _ (ix2 p q)) ?_
  rw [broadcastTo_a1_ab_apply x1 Gen.broadcasts_S1000x1_S1000x300 p q]
  congr 1
  refine (Cert.LibDot.matmul_zero_apply (m := 1000) (k := 512) (n := 300)
    Gen.dot_S1000x512_S512x300_S1000x300_1_0_0_1_n_n_wf none _ _ p q).trans ?_
  refine Finset.sum_congr rfl fun k _ => ?_
  show max ((broadcastTo S1000x512 x1 Gen.broadcasts_S1000x1_S1000x512) (ix2 p k) * x0 (ix2 p k)
      + (broadcastTo S1000x512 x2 Gen.broadcasts_S1x512_S1000x512) (ix2 p k)) KV.zeroW * x3 (ix2 k q) = _
  rw [broadcastTo_a1_ab_apply x1 Gen.broadcasts_S1000x1_S1000x512 p k,
    broadcastTo_1b_ab_apply x2 Gen.broadcasts_S1x512_S1000x512 p k]

/-- What the body leaves in the output block, entry by entry: the body loads its four blocks whole and stores the
    block's arithmetic whole. -/
theorem body1 (x0 : Vec Ideal S1000x512 .f32) (x1 : Vec Ideal S1000x1 .f32) (x2 : Vec Ideal S1x512 .f32)
    (x3 : Vec Ideal S512x300 .f32) (p : Fin 1000) (q : Fin 300) :
    Gen.out1_4 (F := Ideal) x0 x1 x2 x3 (ix2 p q)
      = (∑ k : Fin 512, max (x1 (ix2 p (0 : Fin 1)) * x0 (ix2 p k) + x2 (ix2 (0 : Fin 1) k)) KV.zeroW * x3 (ix2 k q))
        * x1 (ix2 p (0 : Fin 1)) := by
  unfold Gen.out1_4
  rw [View.canon_unit_zero zeros2]
  simp only [View.ld_unit_zero (S := S1000x512) zeros2, View.ld_unit_zero (S := S1000x1) zeros2,
    View.ld_unit_zero (S := S1x512) zeros2, View.ld_unit_zero (S := S512x300) zeros2]
  exact pay1 x0 x1 x2 x3 p q

/-! ## The blocks of a point

Point `t` of the 50 works on node rows `1000 t … 1000 t + 999`: the blocks of the accumulated rows, of the factor
column and of the result all sit at block row `t`, block column 0; the bias row and W are their arrays whole. -/

/-- The printed block index maps, decided once over the 50 points. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem arrRef0 : Pipeline.arrRef spec1 0 = main_v36 := rfl
theorem arrRef1 : Pipeline.arrRef spec1 1 = main_v22 := rfl
theorem arrRef2 : Pipeline.arrRef spec1 2 = main_v23 := rfl
theorem arrRef3 : Pipeline.arrRef spec1 3 = main_arg4 := rfl
theorem arrRef4 : Pipeline.arrRef spec1 4 = main_v37 := rfl

variable (V : (c : Dev nD) → (b : Ref sig .tc) → Buf (Elt Ideal) ((c : Thread nD τ).loc b))

/-- Entry (p, k) of the block of accumulated rows at point `t` is entry (1000 t + p, k) of the array. -/
theorem blockRows (c : Dev nD) (t : Fin cfg1.N) (p : Fin 1000) (k : Fin 512) (n : Fin 50000)
    (hn : n.val = t.val * 1000 + p.val) :
    (Gen.iblk1 (F := Ideal) V c 0 t : Vec Ideal S1000x512 .f32) (ix2 p k)
      = (V c main_v36 : FVec Ideal S50000x512 .f32) (ix2 n k) := by
  obtain ⟨e0, e1, -⟩ := blockIndex t
  show (V c main_v36 : FVec Ideal S50000x512 .f32) (((cfg1.win 0).blk t).view.emb (ix2 p k)) = _
  congr 1
  funext a; apply Fin.ext
  match a with
  | ⟨0, _⟩ => show win1_0.index t (0 : Fin 2) * 1000 + 1 * p.val = n.val; omega
  | ⟨1, _⟩ => show win1_0.index t (1 : Fin 2) * 512 + 1 * k.val = k.val; omega

/-- Entry (p, 0) of the block of the factor column at point `t` is entry (1000 t + p, 0) of the column. -/
theorem blockFactor (c : Dev nD) (t : Fin cfg1.N) (p : Fin 1000) (n : Fin 50000)
    (hn : n.val = t.val * 1000 + p.val) :
    (Gen.iblk1 (F := Ideal) V c 1 t : Vec Ideal S1000x1 .f32) (ix2 p (0 : Fin 1))
      = (V c main_v22 : FVec Ideal S50000x1 .f32) (ix2 n (0 : Fin 1)) := by
  obtain ⟨-, -, e2, e3, -⟩ := blockIndex t
  show (V c main_v22 : FVec Ideal S50000x1 .f32) (((cfg1.win 1).blk t).view.emb (ix2 p (0 : Fin 1))) = _
  congr 1
  funext a; apply Fin.ext
  match a with
  | ⟨0, _⟩ => show win1_1.index t (0 : Fin 2) * 1000 + 1 * p.val = n.val; omega
  | ⟨1, _⟩ => show win1_1.index t (1 : Fin 2) * 1 + 1 * (0 : Fin 1).val = (0 : Fin 1).val; omega

/-- The block of the bias row is the bias row, at every point. -/
theorem blockBias (c : Dev nD) (t : Fin cfg1.N) (k : Fin 512) :
    (Gen.iblk1 (F := Ideal) V c 2 t : Vec Ideal S1x512 .f32) (ix2 (0 : Fin 1) k)
      = (V c main_v23 : FVec Ideal S1x512 .f32) (ix2 (0 : Fin 1) k) := by
  obtain ⟨-, -, -, -, e4, e5, -⟩ := blockIndex t
  show (V c main_v23 : FVec Ideal S1x512 .f32) (((cfg1.win 2).blk t).view.emb (ix2 (0 : Fin 1) k)) = _
  congr 1
  funext a; apply Fin.ext
  match a with
  | ⟨0, _⟩ => show win1_2.index t (0 : Fin 2) * 1 + 1 * (0 : Fin 1).val = (0 : Fin 1).val; omega
  | ⟨1, _⟩ => show win1_2.index t (1 : Fin 2) * 512 + 1 * k.val = k.val; omega

/-- The block of W is W, at every point. -/
theorem blockW (c : Dev nD) (t : Fin cfg1.N) (k : Fin 512) (q r : Fin 300) (hr : r.val = q.val) :
    (Gen.iblk1 (F := Ideal) V c 3 t : Vec Ideal S512x300 .f32) (ix2 k q)
      = (V c main_arg4 : FVec Ideal S512x300 .f32) (ix2 k r) := by
  obtain ⟨-, -, -, -, -, -, e6, e7, -⟩ := blockIndex t
  show (V c main_arg4 : FVec Ideal S512x300 .f32) (((cfg1.win 3).blk t).view.emb (ix2 k q)) = _
  congr 1
  funext a; apply Fin.ext
  match a with
  | ⟨0, _⟩ => show win1_3.index t (0 : Fin 2) * 512 + 1 * k.val = k.val; omega
  | ⟨1, _⟩ => show win1_3.index t (1 : Fin 2) * 300 + 1 * q.val = r.val; omega

/-! ## From the blocks to the array -/

/-- An entry of the output block at point `t` is the stage's result on the whole arrays at the entry's place in the
    result array: row 1000 t + p, column q. -/
theorem pointValue (c : Dev nD) (t : Fin cfg1.N) (p : Fin 1000) (q : Fin 300) (i : S50000x300.Idx)
    (h0 : (i 0).val = t.val * 1000 + p.val) (h1 : (i 1).val = q.val) :
    Gen.out1_4 (F := Ideal) (Gen.iblk1 V c 0 t) (Gen.iblk1 V c 1 t) (Gen.iblk1 V c 2 t) (Gen.iblk1 V c 3 t) (ix2 p q)
      = KV.stage1 (V c main_v36) (V c main_v22) (V c main_v23) (V c main_arg4) i := by
  refine (body1 _ _ _ _ p q).trans ?_
  unfold KV.stage1
  rw [blockFactor V c t p (i 0) h0]
  refine congrArg₂ (· * ·) (Finset.sum_congr rfl fun k _ => ?_) rfl
  rw [blockRows V c t p k (i 0) h0, blockBias V c t k, blockW V c t k q (i 1) h1]

/-- The same at an index of the block: its place in the result array is where the block's rectangle puts it. -/
theorem blockEntry (c : Dev nD) (t : Fin cfg1.N) (j : S1000x300.Idx) :
    Gen.out1_4 (F := Ideal) (Gen.iblk1 V c 0 t) (Gen.iblk1 V c 1 t) (Gen.iblk1 V c 2 t) (Gen.iblk1 V c 3 t) j
      = KV.stage1 (V c main_v36) (V c main_v22) (V c main_v23) (V c main_arg4) (((cfg1.win 4).blk t).view.emb j) := by
  obtain ⟨p, q, rfl⟩ : ∃ (p : Fin 1000) (q : Fin 300), j = ix2 p q := ⟨j 0, j 1, eq_ix2 j⟩
  obtain ⟨-, -, -, -, -, -, -, -, e8, e9⟩ := blockIndex t
  refine pointValue V c t p q _ ?_ ?_
  · show win1_4.index t (0 : Fin 2) * 1000 + 1 * p.val = t.val * 1000 + p.val; omega
  · show win1_4.index t (1 : Fin 2) * 300 + 1 * q.val = q.val; omega

/-- What point `t` writes back is block `t` of the stage's result on the whole arrays. -/
theorem flushedBlock (c : Dev nD) (t : Fin cfg1.N) :
    (Gen.dat1 (F := Ideal) V c).flushed 4 t
      = ((cfg1.win 4).blk t).view.read (Elt Ideal)
          (KV.stage1 (V c main_v36) (V c main_v22) (V c main_v23) (V c main_arg4)) := by
  show (cfg1.win 4).cut (grid1.coords t) ((Gen.dat1 V c).after 4 t) = _
  rw [Gen.after1_4]
  funext j
  exact blockEntry V c t j

/-- An index of the result array is in point `t`'s block iff each coordinate is in the block's range on its axis. -/
theorem mem_block (t : Fin cfg1.N) (i : S50000x300.Idx) :
    i ∈ ((cfg1.win 4).blk t).view.set ↔ ∀ a : Fin 2, win1_4.index t a * S1000x300.size a ≤ (i a).val
      ∧ (i a).val < win1_4.index t a * S1000x300.size a + S1000x300.size a := by
  show i ∈ ((View.whole main_v37).slice (win1_4.rect t)).set ↔ _
  rw [View.set_slice_whole, Rect.mem_set_unit]
  exact Iff.rfl

/-- Every entry of the result array is written back: row n by the point n / 1000. -/
theorem covered (i : S50000x300.Idx) :
    ∃ t : Fin cfg1.N, (cfg1.win 4).flush t = true ∧ i ∈ ((cfg1.win 4).blk t).view.set := by
  have hi0 : (i 0).val < 50000 := (i 0).isLt
  have hi1 : (i 1).val < 300 := (i 1).isLt
  obtain ⟨t, ht⟩ : ∃ t : Fin cfg1.N, t.val = (i 0).val / 1000 :=
    ⟨⟨(i 0).val / 1000, by show (i 0).val / 1000 < grid1.N; rw [Gen.N_1]; omega⟩, rfl⟩
  obtain ⟨-, -, -, -, -, -, -, -, e8, e9⟩ := blockIndex t
  refine ⟨t, Gen.flush1_4 t, ?_⟩
  rw [mem_block]
  intro a
  match a with
  | ⟨0, _⟩ =>
    show win1_4.index t (0 : Fin 2) * 1000 ≤ (i 0).val ∧ (i 0).val < win1_4.index t (0 : Fin 2) * 1000 + 1000
    omega
  | ⟨1, _⟩ =>
    show win1_4.index t (1 : Fin 2) * 300 ≤ (i 1).val ∧ (i 1).val < win1_4.index t (1 : Fin 2) * 300 + 300
    omega

/-- The result array after the 50 points is the stage's result on the arrays the region found. -/
theorem final1 (c : Dev nD) :
    (Gen.dat1 (F := Ideal) V c).arrAt 4 cfg1.N
      = KV.stage1 (V c main_v36) (V c main_v22) (V c main_v23) (V c main_arg4) :=
  (Gen.dat1 (F := Ideal) V c).arrAt_eq_of_cover 4 _ (fun t _ => flushedBlock V c t) covered

end Cert.KernelIdeal.R1

end
-- ==== Proof.Region2.lean ====
/-
  The third tiled stage of the idealized kernel, as one function of whole arrays.

  The stage works on blocks of 1000 node rows. At a grid point it reads a block A of the accumulated rows (1000 by 300),
  the matching block d of the node-factor column (1000 by 1) and the bias row b (1 by 300), and stores, at row p and
  column q of its output block,
      max (d (p, 0) * A (p, q) + b (0, q)) 0 .
  Grid point t reads rows 1000 t .. 1000 t + 999 of the accumulated array and of the factor column, the whole bias row,
  and writes rows 1000 t .. 1000 t + 999 of the result. The fifty blocks tile the 50000 rows (row n lies in block
  n / 1000), so the result array ends holding, at (n, q), max (d (n, 0) * A (n, q) + b (0, q)) 0 of the whole arrays:
  the third stage of the composed value.
-/
import proofs.«100301_j47253230191022_2_alg».proof.Proof.Gen.KernelIdeal.Frame
import proofs.«100301_j47253230191022_2_alg».proof.Proof.KDefs
import Idealize.ShloMosaic.Lib.ValueIdx
import Idealize.ShloMosaic.Lib.ValueLayout
import Idealize.ShloMosaic.Lib.Pipeline.Value
import proofs.«100301_j47253230191022_2_alg».proof.Proof.LibKeepdims

noncomputable section

namespace Cert.KernelIdeal.R2

open Cert.KernelIdeal Cert.KernelIdeal.Gen Cert.KernelIdeal.Facts₀ Idealize.ShloMosaic Idealize.ShloMosaic.ValueIdx
open Idealize.ShloMosaic.TcCoe
open Idealize.ShloMosaic.Pipeline (Dat)

/-- The zero offsets of a whole-block access, spelt as a constant function. -/
theorem zeroOffsets : (![0, 0] : Fin 2 → Nat) = fun _ => 0 := funext fun a => by fin_cases a <;> rfl

/-! ## The body at an index -/

set_option maxHeartbeats 400000 in
/-- What the body stores at row p, column q of its output block: the factor of row p times the accumulated entry, plus
    the bias of column q, clamped below at zero. -/
theorem body2 (x0 : Vec Ideal S1000x300 .f32) (x1 : Vec Ideal S1000x1 .f32) (x2 : Vec Ideal S1x300 .f32)
    (p : Fin 1000) (q : Fin 300) :
    Gen.out2_3 (F := Ideal) x0 x1 x2 (ix2 p q)
      = max (x1 (ix2 p (0 : Fin 1)) * x0 (ix2 p q) + x2 (ix2 (0 : Fin 1) q)) KV.zeroW := by
  unfold Gen.out2_3
  rw [View.canon_unit_zero zeroOffsets]
  simp only [View.ld_unit_zero (S := S1000x300) zeroOffsets, View.ld_unit_zero (S := S1000x1) zeroOffsets,
    View.ld_unit_zero (S := S1x300) zeroOffsets]
  unfold Gen.k2_pay1
  show max ((broadcastTo S1000x300 (shapeCast S1000x1 x1 _) _) (ix2 p q)
        * (shapeCast S1000x300 x0 _) (ix2 p q)
      + (broadcastTo S1000x300 (shapeCast S1x300 x2 _) _) (ix2 p q))
      KV.zeroW = _
  rw [shapeCast_self, shapeCast_self, shapeCast_self, broadcastTo_a1_ab_apply, broadcastTo_1b_ab_apply]

/-- The same at any index of the block, each block entry named by the whole-array entry it is a copy of: the
    stored value is then the third stage of the whole arrays at that array index. -/
theorem body2_whole (A : FVec Ideal S50000x300 .f32) (d : FVec Ideal S50000x1 .f32) (b : FVec Ideal S1x300 .f32)
    (x0 : Vec Ideal S1000x300 .f32) (x1 : Vec Ideal S1000x1 .f32) (x2 : Vec Ideal S1x300 .f32)
    (y : S1000x300.Idx) (i : S50000x300.Idx)
    (h0 : x0 y = A i) (h1 : x1 (ix2 (y 0) (0 : Fin 1)) = d (ix2 (i 0) (0 : Fin 1)))
    (h2 : x2 (ix2 (0 : Fin 1) (y 1)) = b (ix2 (0 : Fin 1) (i 1))) :
    Gen.out2_3 (F := Ideal) x0 x1 x2 y = KV.stage2 A d b i := by
  obtain ⟨p, q, rfl⟩ : ∃ (p : Fin 1000) (q : Fin 300), y = ix2 p q := ⟨y 0, y 1, eq_ix2 y⟩
  obtain ⟨n, r, rfl⟩ : ∃ (n : Fin 50000) (r : Fin 300), i = ix2 n r := ⟨i 0, i 1, eq_ix2 i⟩
  have h1' : x1 (ix2 p (0 : Fin 1)) = d (ix2 n (0 : Fin 1)) := h1
  have h2' : x2 (ix2 (0 : Fin 1) q) = b (ix2 (0 : Fin 1) r) := h2
  rw [body2, h0, h1', h2']
  rfl

/-! ## From blocks to the array -/

/-- The printed index maps over the grid: at point t the accumulated rows, the factor column and the result are at block
    row t, block column 0; the bias row is always at block (0, 0). -/
theorem blockIndices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

set_option maxHeartbeats 400000 in
/-- What point t writes back is block t of the third stage of the whole arrays. -/
theorem flushed_eq (c : Dev nD) (t : Fin cfg2.N) :
    (Gen.dat2 (F := Ideal) V c).flushed 3 t
      = ((cfg2.win 3).blk t).view.read (Elt Ideal) (KV.stage2 (V c main_v48) (V c main_v22) (V c main_v24)) := by
  show (cfg2.win 3).cut (grid2.coords t) ((Gen.dat2 (F := Ideal) V c).after 3 t) = _
  rw [Gen.after2_3]
  obtain ⟨a00, a01, d00, d01, b00, b01, r00, r01⟩ := blockIndices t
  funext j
  refine body2_whole (V c main_v48) (V c main_v22) (V c main_v24) _ _ _ _ (((cfg2.win 3).blk t).view.emb j) ?_ ?_ ?_
  · show V c main_v48 (((cfg2.win 0).blk t).view.emb j) = V c main_v48 (((cfg2.win 3).blk t).view.emb j)
    have e : ((cfg2.win 0).blk t).view.emb j = ((cfg2.win 3).blk t).view.emb j := by
      funext a; apply Fin.ext
      match a with
      | ⟨0, _⟩ => show win2_0.index t (0 : Fin 2) * 1000 + 1 * (j 0).val = win2_3.index t (0 : Fin 2) * 1000 + 1 * (j 0).val; rw [a00, r00]
      | ⟨1, _⟩ => show win2_0.index t (1 : Fin 2) * 300 + 1 * (j 1).val = win2_3.index t (1 : Fin 2) * 300 + 1 * (j 1).val; rw [a01, r01]
    rw [e]
  · show V c main_v22 (((cfg2.win 1).blk t).view.emb (ix2 (j 0) (0 : Fin 1)))
      = V c main_v22 (ix2 ((((cfg2.win 3).blk t).view.emb j) 0) (0 : Fin 1))
    have e : ((cfg2.win 1).blk t).view.emb (ix2 (j 0) (0 : Fin 1))
        = ix2 ((((cfg2.win 3).blk t).view.emb j) 0) (0 : Fin 1) := by
      funext a; apply Fin.ext
      match a with
      | ⟨0, _⟩ => show win2_1.index t (0 : Fin 2) * 1000 + 1 * (j 0).val = win2_3.index t (0 : Fin 2) * 1000 + 1 * (j 0).val; rw [d00, r00]
      | ⟨1, _⟩ => show win2_1.index t (1 : Fin 2) * 1 + 1 * 0 = 0; rw [d01]
    exact congrArg (V c main_v22) e
  · show V c main_v24 (((cfg2.win 2).blk t).view.emb (ix2 (0 : Fin 1) (j 1)))
      = V c main_v24 (ix2 (0 : Fin 1) ((((cfg2.win 3).blk t).view.emb j) 1))
    have e : ((cfg2.win 2).blk t).view.emb (ix2 (0 : Fin 1) (j 1))
        = ix2 (0 : Fin 1) ((((cfg2.win 3).blk t).view.emb j) 1) := by
      funext a; apply Fin.ext
      match a with
      | ⟨0, _⟩ => show win2_2.index t (0 : Fin 2) * 1 + 1 * 0 = 0; rw [b00]
      | ⟨1, _⟩ => show win2_2.index t (1 : Fin 2) * 300 + 1 * (j 1).val = win2_3.index t (1 : Fin 2) * 300 + 1 * (j 1).val; rw [b01, r01]
    exact congrArg (V c main_v24) e

/-- An index of the result array is in point t's block iff each coordinate is in the block's range on its axis. -/
theorem mem_block (t : Fin cfg2.N) (i : S50000x300.Idx) :
    i ∈ ((cfg2.win 3).blk t).view.set ↔ ∀ a : Fin 2, win2_3.index t a * S1000x300.size a ≤ (i a).val
      ∧ (i a).val < win2_3.index t a * S1000x300.size a + S1000x300.size a := by
  show i ∈ ((View.whole main_v49).slice (win2_3.rect t)).set ↔ _
  rw [View.set_slice_whole, Rect.mem_set_unit]
  exact Iff.rfl

/-- The fifty blocks tile the rows: row n is in the block of point n / 1000, and every column is in every block. -/
theorem covered (i : S50000x300.Idx) :
    ∃ t : Fin cfg2.N, (cfg2.win 3).flush t = true ∧ i ∈ ((cfg2.win 3).blk t).view.set := by
  have hi0 : (i 0).val < 50000 := (i 0).isLt
  have hi1 : (i 1).val < 300 := (i 1).isLt
  have hN : grid2.N = 50 := N_2
  have ht : (i 0).val / 1000 < cfg2.N := by show (i 0).val / 1000 < grid2.N; rw [hN]; omega
  obtain ⟨-, -, -, -, -, -, r00, r01⟩ := blockIndices ⟨(i 0).val / 1000, ht⟩
  refine ⟨⟨(i 0).val / 1000, ht⟩, flush2_3 _, ?_⟩
  rw [mem_block]
  intro a
  match a with
  | ⟨0, _⟩ =>
    show win2_3.index ⟨(i 0).val / 1000, ht⟩ (0 : Fin 2) * 1000 ≤ (i 0).val
      ∧ (i 0).val < win2_3.index ⟨(i 0).val / 1000, ht⟩ (0 : Fin 2) * 1000 + 1000
    rw [r00]; show (i 0).val / 1000 * 1000 ≤ (i 0).val ∧ (i 0).val < (i 0).val / 1000 * 1000 + 1000; omega
  | ⟨1, _⟩ =>
    show win2_3.index ⟨(i 0).val / 1000, ht⟩ (1 : Fin 2) * 300 ≤ (i 1).val
      ∧ (i 1).val < win2_3.index ⟨(i 0).val / 1000, ht⟩ (1 : Fin 2) * 300 + 300
    rw [r01]; omega

/-! ## The result array after the region -/

/-- The result array after the fifty points is the third stage of the arrays the region found. -/
theorem final2 (c : Dev nD) :
    (Gen.dat2 (F := Ideal) V c).arrAt 3 cfg2.N = KV.stage2 (V c main_v48) (V c main_v22) (V c main_v24) :=
  (Gen.dat2 (F := Ideal) V c).arrAt_eq_of_cover 3 (KV.stage2 (V c main_v48) (V c main_v22) (V c main_v24))
    (fun t _ => flushed_eq V c t) covered

end Cert.KernelIdeal.R2

end
-- ==== Proof.KChain.lean ====
/-
  The idealized kernel's result buffer at the last boundary is the composed value of KDefs: boundary by boundary, what
  each buffer a later stage reads holds. A tiled stage leaves its input arrays and every buffer outside its windows as
  they were and its output array at the stage's function of its inputs; a host stretch writes only its own results.
-/
import proofs.«100301_j47253230191022_2_alg».proof.Proof.KHost
import proofs.«100301_j47253230191022_2_alg».proof.Proof.Region0
import proofs.«100301_j47253230191022_2_alg».proof.Proof.Region1
import proofs.«100301_j47253230191022_2_alg».proof.Proof.Region2

set_option maxRecDepth 16384

noncomputable section

namespace Cert.KernelIdeal.KV

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)
-- the node factor column as the first stage finds it (read off the host prefix separately)
variable (hf : W3 m ρ c (Proc.devRef .tc main_v22) = dinvCol (m ((c.tc : Thread nD τ).loc main_arg1)))

/-! ## After the first stage -/

theorem at4_src : W4 m ρ c (Proc.devRef .tc main_v3) = edgeRow0 (m ((c.tc : Thread nD τ).loc main_arg1)) :=
  (W4_of_ne m ρ c main_v3 (by decide)).trans (pre_src m ρ c)
theorem at4_dst : W4 m ρ c (Proc.devRef .tc main_v6) = edgeRow1 (m ((c.tc : Thread nD τ).loc main_arg1)) :=
  (W4_of_ne m ρ c main_v6 (by decide)).trans (pre_dst m ρ c)
theorem at4_b1 : W4 m ρ c (Proc.devRef .tc main_v23) = (shapeCast S1x512 (m ((c.tc : Thread nD τ).loc main_arg3)) Facts₀.shapeCasts_S512_S1x512) :=
  (W4_of_ne m ρ c main_v23 (by decide)).trans (pre_b1 m ρ c)
theorem at4_b2 : W4 m ρ c (Proc.devRef .tc main_v24) = (shapeCast S1x300 (m ((c.tc : Thread nD τ).loc main_arg5)) Facts₀.shapeCasts_S300_S1x300) :=
  (W4_of_ne m ρ c main_v24 (by decide)).trans (pre_b2 m ρ c)
theorem at4_W2 : W4 m ρ c (Proc.devRef .tc main_arg4) = (m ((c.tc : Thread nD τ).loc main_arg4)) :=
  (W4_of_ne m ρ c main_arg4 (by decide)).trans (pre_W2 m ρ c)
include hf in
theorem at4_factor : W4 m ρ c (Proc.devRef .tc main_v22) = (dinvCol (m ((c.tc : Thread nD τ).loc main_arg1))) :=
  ((W4_arr m ρ c 2).trans (((dat0 (V3 m ρ) c).arrAt_in 2 rfl _).trans (A_eq0 (V3 m ρ) c 2))).trans hf
include hf in
theorem at4_h1 : W4 m ρ c (Proc.devRef .tc main_v25) = (stage0 (m ((c.tc : Thread nD τ).loc main_arg0)) (m ((c.tc : Thread nD τ).loc main_arg2)) (dinvCol (m ((c.tc : Thread nD τ).loc main_arg1)))) := by
  refine ((W4_arr m ρ c 3).trans (R0.final0 (V3 m ρ) c)).trans ?_
  show stage0 (W3 m ρ c (Proc.devRef .tc main_arg0)) (W3 m ρ c (Proc.devRef .tc main_arg2)) (W3 m ρ c (Proc.devRef .tc main_v22)) = _
  rw [pre_x, pre_W1, hf]

/-! ## After the first pick-and-accumulate -/

theorem at5_src : W5 m ρ c (Proc.devRef .tc main_v3) = edgeRow0 (m ((c.tc : Thread nD τ).loc main_arg1)) :=
  (mid1_keep_main_v3 (W4 m ρ c)).trans (at4_src m ρ c)
theorem at5_dst : W5 m ρ c (Proc.devRef .tc main_v6) = edgeRow1 (m ((c.tc : Thread nD τ).loc main_arg1)) :=
  (mid1_keep_main_v6 (W4 m ρ c)).trans (at4_dst m ρ c)
theorem at5_b1 : W5 m ρ c (Proc.devRef .tc main_v23) = (shapeCast S1x512 (m ((c.tc : Thread nD τ).loc main_arg3)) Facts₀.shapeCasts_S512_S1x512) :=
  (mid1_keep_main_v23 (W4 m ρ c)).trans (at4_b1 m ρ c)
theorem at5_b2 : W5 m ρ c (Proc.devRef .tc main_v24) = (shapeCast S1x300 (m ((c.tc : Thread nD τ).loc main_arg5)) Facts₀.shapeCasts_S300_S1x300) :=
  (mid1_keep_main_v24 (W4 m ρ c)).trans (at4_b2 m ρ c)
theorem at5_W2 : W5 m ρ c (Proc.devRef .tc main_arg4) = (m ((c.tc : Thread nD τ).loc main_arg4)) :=
  (mid1_keep_main_arg4 (W4 m ρ c)).trans (at4_W2 m ρ c)
include hf in
theorem at5_factor : W5 m ρ c (Proc.devRef .tc main_v22) = (dinvCol (m ((c.tc : Thread nD τ).loc main_arg1))) :=
  (mid1_keep_main_v22 (W4 m ρ c)).trans (at4_factor m ρ c hf)
include hf in
theorem at5_a1 : W5 m ρ c (Proc.devRef .tc main_v36) = (agg512 (m ((c.tc : Thread nD τ).loc main_arg1)) (stage0 (m ((c.tc : Thread nD τ).loc main_arg0)) (m ((c.tc : Thread nD τ).loc main_arg2)) (dinvCol (m ((c.tc : Thread nD τ).loc main_arg1))))) := by
  refine (mid1 (W4 m ρ c)).trans ?_
  rw [at4_src, at4_dst, at4_h1 m ρ c hf]
  rfl

/-! ## After the second stage -/

theorem at6_src : W6 m ρ c (Proc.devRef .tc main_v3) = edgeRow0 (m ((c.tc : Thread nD τ).loc main_arg1)) :=
  (W6_of_ne m ρ c main_v3 (by decide)).trans (at5_src m ρ c)
theorem at6_dst : W6 m ρ c (Proc.devRef .tc main_v6) = edgeRow1 (m ((c.tc : Thread nD τ).loc main_arg1)) :=
  (W6_of_ne m ρ c main_v6 (by decide)).trans (at5_dst m ρ c)
theorem at6_b2 : W6 m ρ c (Proc.devRef .tc main_v24) = (shapeCast S1x300 (m ((c.tc : Thread nD τ).loc main_arg5)) Facts₀.shapeCasts_S300_S1x300) :=
  (W6_of_ne m ρ c main_v24 (by decide)).trans (at5_b2 m ρ c)
include hf in
theorem at6_factor : W6 m ρ c (Proc.devRef .tc main_v22) = (dinvCol (m ((c.tc : Thread nD τ).loc main_arg1))) :=
  ((W6_arr m ρ c 1).trans (((dat1 (V5 m ρ) c).arrAt_in 1 rfl _).trans (A_eq1 (V5 m ρ) c 1))).trans (at5_factor m ρ c hf)
include hf in
theorem at6_h2 : W6 m ρ c (Proc.devRef .tc main_v37) = (stage1 (agg512 (m ((c.tc : Thread nD τ).loc main_arg1)) (stage0 (m ((c.tc : Thread nD τ).loc main_arg0)) (m ((c.tc : Thread nD τ).loc main_arg2)) (dinvCol (m ((c.tc : Thread nD τ).loc main_arg1))))) (dinvCol (m ((c.tc : Thread nD τ).loc main_arg1))) (shapeCast S1x512 (m ((c.tc : Thread nD τ).loc main_arg3)) Facts₀.shapeCasts_S512_S1x512) (m ((c.tc : Thread nD τ).loc main_arg4))) := by
  refine ((W6_arr m ρ c 4).trans (R1.final1 (V5 m ρ) c)).trans ?_
  show stage1 (W5 m ρ c (Proc.devRef .tc main_v36)) (W5 m ρ c (Proc.devRef .tc main_v22)) (W5 m ρ c (Proc.devRef .tc main_v23)) (W5 m ρ c (Proc.devRef .tc main_arg4)) = _
  rw [at5_a1 m ρ c hf, at5_factor m ρ c hf, at5_b1, at5_W2]

/-! ## After the second pick-and-accumulate -/

theorem at7_b2 : W7 m ρ c (Proc.devRef .tc main_v24) = (shapeCast S1x300 (m ((c.tc : Thread nD τ).loc main_arg5)) Facts₀.shapeCasts_S300_S1x300) :=
  (mid2_keep_main_v24 (W6 m ρ c)).trans (at6_b2 m ρ c)
include hf in
theorem at7_factor : W7 m ρ c (Proc.devRef .tc main_v22) = (dinvCol (m ((c.tc : Thread nD τ).loc main_arg1))) :=
  (mid2_keep_main_v22 (W6 m ρ c)).trans (at6_factor m ρ c hf)
include hf in
theorem at7_a2 : W7 m ρ c (Proc.devRef .tc main_v48) = (agg300 (m ((c.tc : Thread nD τ).loc main_arg1)) (stage1 (agg512 (m ((c.tc : Thread nD τ).loc main_arg1)) (stage0 (m ((c.tc : Thread nD τ).loc main_arg0)) (m ((c.tc : Thread nD τ).loc main_arg2)) (dinvCol (m ((c.tc : Thread nD τ).loc main_arg1))))) (dinvCol (m ((c.tc : Thread nD τ).loc main_arg1))) (shapeCast S1x512 (m ((c.tc : Thread nD τ).loc main_arg3)) Facts₀.shapeCasts_S512_S1x512) (m ((c.tc : Thread nD τ).loc main_arg4)))) := by
  refine (mid2 (W6 m ρ c)).trans ?_
  rw [at6_src, at6_dst, at6_h2 m ρ c hf]
  rfl

/-! ## After the third stage -/

include hf in
/-- The result buffer at the last boundary is the composed value. -/
theorem last_result : W8 m ρ c (Proc.devRef .tc main_v49) = kval (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine ((W8_arr m ρ c 3).trans (R2.final2 (V7 m ρ) c)).trans ?_
  show stage2 (W7 m ρ c (Proc.devRef .tc main_v48)) (W7 m ρ c (Proc.devRef .tc main_v22)) (W7 m ρ c (Proc.devRef .tc main_v24)) = _
  rw [at7_a2 m ρ c hf, at7_factor m ρ c hf, at7_b2]
  rfl

end Cert.KernelIdeal.KV

end
-- ==== Proof.LibIndexOps.lean ====
/-
  Rows of a matrix (or entries of a vector) picked and accumulated by a list of integer positions, read at an index.

  A gather "x[idx]" along the leading axis reads, for list entry e, the row of x at position idx e, the position read as
  a signed integer and clamped into the rows of x. An accumulating scatter "y.at[idx].add(u)" adds, into row n of y, every
  list entry e's update whose position idx e, read as a signed integer and NOT clamped, is exactly n; an entry whose
  position is negative or past the last row contributes nothing. At the ideal values the accumulation is the exact sum,
  so the scattered array at (n, q) is y (n, q) plus the sum over the list entries e with idx e = n of u (e, q).
  Stated for the dimension numbers jax prints for these two operations on a matrix and on a vector, with the list of
  positions given as an [M, 1] array, for any extents.
-/
import Idealize.ShloMosaic.Lib.ValueIdx
import Idealize.ShloMosaic.PureOps.Ideal.Laws

noncomputable section

namespace Cert.LibIndexOps

open Idealize.ShloMosaic Idealize.ShloMosaic.ValueIdx
open scoped BigOperators

variable {α : Type} {N M D w : Nat}

/-! ## Gathering rows of a matrix -/

/-- The record of "x[idx]" for a matrix x : [N, D] and positions [M, 1]: whole rows, the leading axis collapsed. -/
abbrev rowsGather (N M D : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, q) of the gathered rows: x at row "position e, clamped" and column q. -/
theorem gather_rows_apply (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowsGather N M D wf) x idx (ix2 e q)
      = x (ix2 (⟨min (idx (ix2 e (0 : Fin 1))).toInt.toNat (N - 1), by omega⟩ : Fin N) q) := by
  unfold Host.gather
  congr 1
  funext a
  refine Fin.ext ?_
  show (rowsGather N M D wf).start (ix2 e q) idx a + (rowsGather N M D wf).batchCoord (ix2 e q) a
    + (rowsGather N M D wf).offCoord (ix2 e q) a = _
  rw [GatherDims.batchCoord_eq_zero _ _ _ List.not_mem_nil]
  have key0 : (rowsGather N M D wf).start (ix2 e q) idx (0 : Fin 2) + 0 + (rowsGather N M D wf).offCoord (ix2 e q) (0 : Fin 2)
      = min (idx (ix2 e (0 : Fin 1))).toInt.toNat (N - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather N M D wf).startIndexMap from List.mem_singleton.mpr rfl)]
    have hsi : (rowsGather N M D wf).siIdx (ix2 e q) ⟨List.idxOf (0 : Fin 2) (rowsGather N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have key1 : (rowsGather N M D wf).start (ix2 e q) idx (1 : Fin 2) + 0 + (rowsGather N M D wf).offCoord (ix2 e q) (1 : Fin 2)
      = q.val := by
    have hs : (rowsGather N M D wf).start (ix2 e q) idx (1 : Fin 2) = 0 := by
      unfold GatherDims.start
      rw [dif_neg (show (1 : Fin 2) ∉ ([0] : List (Fin 2)) by decide)]
    have ho : (rowsGather N M D wf).offCoord (ix2 e q) (1 : Fin 2) = q.val := by
      unfold GatherDims.offCoord
      rw [dif_pos ((GatherDims.mem_sKept _ _).2 ⟨(show (1 : Fin 2) ∉ ([0] : List (Fin 2)) by decide), List.not_mem_nil⟩)]
      rfl
    rw [hs, ho]; omega
  match a with
  | ⟨0, _⟩ => exact key0
  | ⟨1, _⟩ => exact key1

/-! ## Gathering entries of a vector -/

/-- The record of "x[idx]" for a vector x : [N] and positions [M, 1]. -/
abbrev vecGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector: x at "position e, clamped". -/
theorem gather_vec_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGather N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (vecGather N M wf).start (ix1 e) idx 0 + (vecGather N M wf).batchCoord (ix1 e) 0 + (vecGather N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 e) ⟨List.idxOf (0 : Fin 1) (vecGather N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating rows into a matrix -/

/-- The record of "y.at[idx].add(u)" for a matrix y : [N, D], positions [M, 1] and updates u : [M, D]. -/
abbrev rowsScatter (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update (e, q') lands on entry (n, q) exactly when position e is n and the columns agree. -/
theorem rows_lands_iff (wf : ScatterDims.WF ⟨2, ![N, D]⟩ ⟨2, ![M, 1]⟩ ⟨2, ![M, D]⟩ [1] [0] [0] 1)
    (idx : IVec ⟨2, ![M, 1]⟩ w) (e : Fin M) (q' : Fin D) (n : Fin N) (q : Fin D) :
    (rowsScatter N M D wf).resultIdx? (ix2 e q') idx = some (ix2 n q)
      ↔ (idx (ix2 e (0 : Fin 1))).toInt = (n.val : Int) ∧ q' = q := by
  have s0 : (rowsScatter N M D wf).start (ix2 e q') idx (0 : Fin 2) = (idx (ix2 e (0 : Fin 1))).toInt := by
    unfold ScatterDims.start
    rw [dif_pos (show (0 : Fin 2) ∈ (rowsScatter N M D wf).scatterDimsToOperandDims from List.mem_singleton.mpr rfl)]
    congr 2
    funext b; refine Fin.ext ?_
    match b with
    | ⟨0, _⟩ => rfl
    | ⟨1, _⟩ => rfl
  have s1 : (rowsScatter N M D wf).start (ix2 e q') idx (1 : Fin 2) = 0 := by
    unfold ScatterDims.start
    rw [dif_neg (show (1 : Fin 2) ∉ ([0] : List (Fin 2)) by decide)]
  have w0 : (rowsScatter N M D wf).window (ix2 e q') (0 : Fin 2) = 0 := by
    unfold ScatterDims.window
    rw [dif_neg (show (0 : Fin 2) ∉ (rowsScatter N M D wf).sKept from (by decide : (0 : Fin 2) ∉ (List.finRange 2).filter (· ∉ ([0] : List (Fin 2)))))]
  have w1 : (rowsScatter N M D wf).window (ix2 e q') (1 : Fin 2) = q'.val := by
    unfold ScatterDims.window
    rw [dif_pos (show (1 : Fin 2) ∈ (rowsScatter N M D wf).sKept from (by decide : (1 : Fin 2) ∈ (List.finRange 2).filter (· ∉ ([0] : List (Fin 2)))))]
    rfl
  have hn := n.isLt
  have hq := q.isLt
  have hq' := q'.isLt
  unfold ScatterDims.resultIdx?
  split
  · next h =>
    rw [Option.some.injEq]
    constructor
    · intro hf
      have h0 : ((rowsScatter N M D wf).start (ix2 e q') idx (0 : Fin 2) + ((rowsScatter N M D wf).window (ix2 e q') (0 : Fin 2) : Int)).toNat = n.val :=
        congrArg (fun f : (⟨2, ![N, D]⟩ : Shape).Idx => (f 0).val) hf
      have h1 : ((rowsScatter N M D wf).start (ix2 e q') idx (1 : Fin 2) + ((rowsScatter N M D wf).window (ix2 e q') (1 : Fin 2) : Int)).toNat = q.val :=
        congrArg (fun f : (⟨2, ![N, D]⟩ : Shape).Idx => (f 1).val) hf
      have hh := (h 0).1
      rw [s0, w0] at h0 hh
      rw [s1, w1] at h1
      exact ⟨by omega, Fin.ext (by omega)⟩
    · rintro ⟨h0, rfl⟩
      funext a; refine Fin.ext ?_
      match a with
      | ⟨0, _⟩ =>
        show ((rowsScatter N M D wf).start (ix2 e q') idx (0 : Fin 2) + ((rowsScatter N M D wf).window (ix2 e q') (0 : Fin 2) : Int)).toNat = n.val
        rw [s0, w0]; omega
      | ⟨1, _⟩ =>
        show ((rowsScatter N M D wf).start (ix2 e q') idx (1 : Fin 2) + ((rowsScatter N M D wf).window (ix2 e q') (1 : Fin 2) : Int)).toNat = q'.val
        rw [s1, w1]; omega
  · next h =>
    constructor
    · intro hf; exact absurd hf (by simp)
    · rintro ⟨h0, rfl⟩
      exfalso; apply h; intro a
      match a with
      | ⟨0, _⟩ =>
        show 0 ≤ (rowsScatter N M D wf).start (ix2 e q') idx (0 : Fin 2) + ((rowsScatter N M D wf).window (ix2 e q') (0 : Fin 2) : Int)
          ∧ (rowsScatter N M D wf).start (ix2 e q') idx (0 : Fin 2) + ((rowsScatter N M D wf).window (ix2 e q') (0 : Fin 2) : Int) < (N : Int)
        rw [s0, w0]; omega
      | ⟨1, _⟩ =>
        show 0 ≤ (rowsScatter N M D wf).start (ix2 e q') idx (1 : Fin 2) + ((rowsScatter N M D wf).window (ix2 e q') (1 : Fin 2) : Int)
          ∧ (rowsScatter N M D wf).start (ix2 e q') idx (1 : Fin 2) + ((rowsScatter N M D wf).window (ix2 e q') (1 : Fin 2) : Int) < (D : Int)
        rw [s1, w1]; omega

/-- Entry (n, q) of the accumulated matrix at the ideal values: y (n, q) plus the updates of the list entries whose
    position is n, at column q. -/
theorem scatterAdd_rows_apply (wf : ScatterDims.WF ⟨2, ![N, D]⟩ ⟨2, ![M, 1]⟩ ⟨2, ![M, D]⟩ [1] [0] [0] 1)
    (y : FVec Ideal ⟨2, ![N, D]⟩ .f32) (idx : IVec ⟨2, ![M, 1]⟩ w) (u : FVec Ideal ⟨2, ![M, D]⟩ .f32) (n : Fin N) (q : Fin D) :
    Host.scatterAdd (rowsScatter N M D wf) y idx u (ix2 n q)
      = y (ix2 n q) + ∑ e : Fin M, if (idx (ix2 e (0 : Fin 1))).toInt = (n.val : Int) then u (ix2 e q) else 0 := by
  show Ideal.hostScatterAdd (rowsScatter N M D wf) y idx u (ix2 n q) = _
  unfold Ideal.hostScatterAdd
  congr 1
  rw [Finset.sum_filter, sum_idx2]
  refine Finset.sum_congr rfl fun e _ => ?_
  simp only [rows_lands_iff]
  by_cases h : (idx (ix2 e (0 : Fin 1))).toInt = (n.val : Int)
  · simp only [h, true_and, if_true]
    rw [Finset.sum_ite_eq' Finset.univ q (fun q' => u (ix2 e q'))]
    simp
  · simp [h]

/-! ## Accumulating entries into a vector -/

/-- The record of "y.at[idx].add(u)" for a vector y : [N], positions [M, 1] and updates u : [M]. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry n exactly when position e is n. -/
theorem vec_lands_iff (wf : ScatterDims.WF ⟨1, ![N]⟩ ⟨2, ![M, 1]⟩ ⟨1, ![M]⟩ [] [0] [0] 1)
    (idx : IVec ⟨2, ![M, 1]⟩ w) (e : Fin M) (n : Fin N) :
    (vecScatter N M wf).resultIdx? (ix1 e) idx = some (ix1 n) ↔ (idx (ix2 e (0 : Fin 1))).toInt = (n.val : Int) := by
  have s0 : (vecScatter N M wf).start (ix1 e) idx (0 : Fin 1) = (idx (ix2 e (0 : Fin 1))).toInt := by
    unfold ScatterDims.start
    rw [dif_pos (show (0 : Fin 1) ∈ (vecScatter N M wf).scatterDimsToOperandDims from List.mem_singleton.mpr rfl)]
    congr 2
    funext b; refine Fin.ext ?_
    match b with
    | ⟨0, _⟩ => rfl
    | ⟨1, _⟩ => rfl
  have w0 : (vecScatter N M wf).window (ix1 e) (0 : Fin 1) = 0 := by
    unfold ScatterDims.window
    rw [dif_neg (show (0 : Fin 1) ∉ (vecScatter N M wf).sKept from (by decide : (0 : Fin 1) ∉ (List.finRange 1).filter (· ∉ ([0] : List (Fin 1)))))]
  have hn := n.isLt
  unfold ScatterDims.resultIdx?
  split
  · next h =>
    rw [Option.some.injEq]
    constructor
    · intro hf
      have h0 : ((vecScatter N M wf).start (ix1 e) idx (0 : Fin 1) + ((vecScatter N M wf).window (ix1 e) (0 : Fin 1) : Int)).toNat = n.val :=
        congrArg (fun f : (⟨1, ![N]⟩ : Shape).Idx => (f 0).val) hf
      have hh := (h 0).1
      rw [s0, w0] at h0 hh
      omega
    · intro h0
      funext a; refine Fin.ext ?_
      obtain rfl : a = 0 := Subsingleton.elim _ _
      show ((vecScatter N M wf).start (ix1 e) idx (0 : Fin 1) + ((vecScatter N M wf).window (ix1 e) (0 : Fin 1) : Int)).toNat = n.val
      rw [s0, w0]; omega
  · next h =>
    constructor
    · intro hf; exact absurd hf (by simp)
    · intro h0
      exfalso; apply h; intro a
      obtain rfl : a = 0 := Subsingleton.elim _ _
      show 0 ≤ (vecScatter N M wf).start (ix1 e) idx (0 : Fin 1) + ((vecScatter N M wf).window (ix1 e) (0 : Fin 1) : Int)
        ∧ (vecScatter N M wf).start (ix1 e) idx (0 : Fin 1) + ((vecScatter N M wf).window (ix1 e) (0 : Fin 1) : Int) < (N : Int)
      rw [s0, w0]; omega

/-- Entry n of the accumulated vector at the ideal values: y n plus the updates of the list entries whose position is n. -/
theorem scatterAdd_vec_apply (wf : ScatterDims.WF ⟨1, ![N]⟩ ⟨2, ![M, 1]⟩ ⟨1, ![M]⟩ [] [0] [0] 1)
    (y : FVec Ideal ⟨1, ![N]⟩ .f32) (idx : IVec ⟨2, ![M, 1]⟩ w) (u : FVec Ideal ⟨1, ![M]⟩ .f32) (n : Fin N) :
    Host.scatterAdd (vecScatter N M wf) y idx u (ix1 n)
      = y (ix1 n) + ∑ e : Fin M, if (idx (ix2 e (0 : Fin 1))).toInt = (n.val : Int) then u (ix1 e) else 0 := by
  show Ideal.hostScatterAdd (vecScatter N M wf) y idx u (ix1 n) = _
  unfold Ideal.hostScatterAdd
  congr 1
  rw [Finset.sum_filter]
  have hsum : ∀ f : (⟨1, ![M]⟩ : Shape).Idx → EReal, ∑ j, f j = ∑ e : Fin M, f (ix1 e) := fun f =>
    (Equiv.sum_comp (⟨fun e => ix1 e, fun j => j 0, fun _ => rfl, fun j => (eq_ix1 j).symm⟩ : Fin M ≃ (⟨1, ![M]⟩ : Shape).Idx) f).symm
  rw [hsum]
  refine Finset.sum_congr rfl fun e _ => ?_
  simp only [vec_lands_iff]

end Cert.LibIndexOps

end
-- ==== Proof.KValue.lean ====
/-
  The composed value of the idealized kernel, read at an entry, is the network "rows scaled before they are picked,
  sums scaled afterwards".

  The kernel's value is three tiled stages with a row gather and an accumulating scatter between them. At an entry:
  an accumulating scatter into zeros adds, into row n, the update of every list entry whose position, read as a signed
  integer and not clamped, is n; the update of entry e is the row of the previous stage's result at the entry's source
  position, read signed and clamped into the nodes; widening a float type is the identity at the ideal values. The first
  stage at (r, k) is row r of X · W1 times the factor of node r, so the first aggregation at (m, k) is zero plus the sum
  over the entries accumulated into m of (X · W1) (source, k) · factor (source). The later stages multiply that sum by
  the node's factor on the left where the network multiplies on the right: the product of extended reals is
  commutative. The factor column at (n, 0) is the factor vector at n, and a bias vector laid out as one row reads its
  entry k at (0, k). The second layer repeats the first with the hidden layer in place of X.
-/
import proofs.«100301_j47253230191022_2_alg».proof.Proof.KDefs
import proofs.«100301_j47253230191022_2_alg».proof.Proof.Spec
import proofs.«100301_j47253230191022_2_alg».proof.Proof.LibIndexOps
import proofs.«100301_j47253230191022_2_alg».proof.Proof.LibKeepdims
import Idealize.ShloMosaic.Lib.ValueIdx
import Idealize.ShloMosaic.Lib.ValueLayout

noncomputable section

namespace Cert.KernelIdeal.KV

open Cert.KernelIdeal Cert.KernelIdeal.Facts₀ Idealize.ShloMosaic Idealize.ShloMosaic.ValueIdx Cert.Net Cert.Gcn
open scoped BigOperators

/-! ## The edge list and the node factor as functions of an entry and of a node -/

/-- The source row of list entry e: its position in the first row of the edge list, read signed and clamped into the nodes. -/
abbrev srcRow (ei : IVec S2x400000 32) : Fin 450000 → Fin 50000 := rowOf (N := 50000) (by decide) (normCol (edgeRow0 ei))

/-- The node list entry e is accumulated into: its position in the second row, read signed and not clamped. -/
abbrev tgtPos (ei : IVec S2x400000 32) : Fin 450000 → Int := posOf (rawCol (edgeRow1 ei))

/-- The node factor of node n. -/
abbrev nodeFactor (ei : IVec S2x400000 32) : Fin 50000 → EReal := fun n => dinvV ei (ix1 n)

/-! ## The layout operations at an entry -/

/-- The factor column at (n, 0) is the factor of node n. -/
theorem dinvCol_apply (ei : IVec S2x400000 32) (n : Fin 50000) : dinvCol ei (ix2 n (0 : Fin 1)) = nodeFactor ei n :=
  shapeCast_a_a1_apply (dinvV ei) shapeCasts_S50000_S50000x1 n 0

/-- A bias vector laid out as one row reads, at (0, k), its entry k. -/
theorem row512_apply (b : FVec Ideal S512 .f32) (k : Fin 512) :
    shapeCast S1x512 b shapeCasts_S512_S1x512 (ix2 (0 : Fin 1) k) = b (ix1 k) :=
  shapeCast_a_1a_apply b shapeCasts_S512_S1x512 0 k

theorem row300_apply (b : FVec Ideal S300 .f32) (q : Fin 300) :
    shapeCast S1x300 b shapeCasts_S300_S1x300 (ix2 (0 : Fin 1) q) = b (ix1 q) :=
  shapeCast_a_1a_apply b shapeCasts_S300_S1x300 0 q

/-! ## Picking rows along the sources and accumulating them along the targets, at an entry -/

set_option maxHeartbeats 400000 in
/-- Entry (n, k) of the accumulated 512-wide array: zero plus the rows of H picked by the entries accumulated into n. -/
theorem agg512_apply (ei : IVec S2x400000 32) (H : FVec Ideal S50000x512 .bf16) (n : Fin 50000) (k : Fin 512) :
    agg512 ei H (ix2 n k)
      = KV.zeroW + ∑ e : Fin 450000, if tgtPos ei e = (n.val : Int) then H (ix2 (srcRow ei e) k) else 0 := by
  unfold agg512
  refine (Cert.LibIndexOps.scatterAdd_rows_apply (N := 50000) (M := 450000) (D := 512)
    scatter_S50000x512_S450000x1_S450000x512_1_0_0_1_wf _ _ _ n k).trans ?_
  refine congrArg₂ (· + ·) rfl (Finset.sum_congr rfl fun e _ => ?_)
  refine if_congr Iff.rfl ?_ rfl
  exact Cert.LibIndexOps.gather_rows_apply (N := 50000) (M := 450000) (D := 512) (by decide)
    gather_S50000x512_S450000x1_S450000x512_1_0_n_n_0_1_1512_wf H (normCol (edgeRow0 ei)) e k

set_option maxHeartbeats 400000 in
/-- The same for the 300-wide array. -/
theorem agg300_apply (ei : IVec S2x400000 32) (H : FVec Ideal S50000x300 .bf16) (n : Fin 50000) (q : Fin 300) :
    agg300 ei H (ix2 n q)
      = KV.zeroW + ∑ e : Fin 450000, if tgtPos ei e = (n.val : Int) then H (ix2 (srcRow ei e) q) else 0 := by
  unfold agg300
  refine (Cert.LibIndexOps.scatterAdd_rows_apply (N := 50000) (M := 450000) (D := 300)
    scatter_S50000x300_S450000x1_S450000x300_1_0_0_1_wf _ _ _ n q).trans ?_
  refine congrArg₂ (· + ·) rfl (Finset.sum_congr rfl fun e _ => ?_)
  refine if_congr Iff.rfl ?_ rfl
  exact Cert.LibIndexOps.gather_rows_apply (N := 50000) (M := 450000) (D := 300) (by decide)
    gather_S50000x300_S450000x1_S450000x300_1_0_n_n_0_1_1300_wf H (normCol (edgeRow0 ei)) e q

/-! ## The stages composed, at an entry -/

section layers

variable (x : FVec Ideal S50000x300 .f32) (ei : IVec S2x400000 32) (W1 : FVec Ideal S300x512 .f32) (b1 : FVec Ideal S512 .f32)
  (W2 : FVec Ideal S512x300 .f32) (b2 : FVec Ideal S300 .f32)

/-- The first stage at (r, k): row r of X · W1 scaled by the factor of node r. -/
theorem stage0_apply (r : Fin 50000) (k : Fin 512) :
    stage0 x W1 (dinvCol ei) (ix2 r k)
      = mm (fun n j => x (ix2 n j)) (fun j k => W1 (ix2 j k)) r k * nodeFactor ei r := by
  show (∑ j : Fin 300, x (ix2 r j) * W1 (ix2 j k)) * dinvCol ei (ix2 r (0 : Fin 1)) = _
  rw [dinvCol_apply]
  rfl

set_option maxHeartbeats 400000 in
/-- The first aggregation, scaled by the node's factor: the factor on the left of the accumulated sum is the factor on
    its right. -/
theorem layer1_apply (m : Fin 50000) (k : Fin 512) :
    dinvCol ei (ix2 m (0 : Fin 1)) * agg512 ei (stage0 x W1 (dinvCol ei)) (ix2 m k)
      = aggK (srcRow ei) (tgtPos ei) (nodeFactor ei) (mm (fun n j => x (ix2 n j)) (fun j k => W1 (ix2 j k))) m k := by
  rw [dinvCol_apply, agg512_apply, mul_comm]
  unfold aggK
  refine congrArg₂ (· * ·) (congrArg₂ (· + ·) rfl (Finset.sum_congr rfl fun e _ => ?_)) rfl
  rw [stage0_apply]

set_option maxHeartbeats 400000 in
/-- The second stage at (m, q): row m of hidden · W2 scaled by the factor of node m. -/
theorem stage1_apply (m : Fin 50000) (q : Fin 300) :
    stage1 (agg512 ei (stage0 x W1 (dinvCol ei))) (dinvCol ei) (shapeCast S1x512 b1 shapeCasts_S512_S1x512) W2 (ix2 m q)
      = mm (hiddenK (srcRow ei) (tgtPos ei) (nodeFactor ei) (fun n j => x (ix2 n j)) (fun j k => W1 (ix2 j k)) (fun k => b1 (ix1 k)))
          (fun k q => W2 (ix2 k q)) m q * nodeFactor ei m := by
  show (∑ k : Fin 512, max (dinvCol ei (ix2 m (0 : Fin 1)) * agg512 ei (stage0 x W1 (dinvCol ei)) (ix2 m k)
      + shapeCast S1x512 b1 shapeCasts_S512_S1x512 (ix2 (0 : Fin 1) k)) KV.zeroW * W2 (ix2 k q)) * dinvCol ei (ix2 m (0 : Fin 1)) = _
  refine congrArg₂ (· * ·) (Finset.sum_congr rfl fun k _ => ?_) (dinvCol_apply ei m)
  rw [layer1_apply, row512_apply]
  rfl

set_option maxHeartbeats 400000 in
/-- The second aggregation, scaled by the node's factor. -/
theorem layer2_apply (n : Fin 50000) (q : Fin 300) :
    dinvCol ei (ix2 n (0 : Fin 1))
        * agg300 ei (stage1 (agg512 ei (stage0 x W1 (dinvCol ei))) (dinvCol ei) (shapeCast S1x512 b1 shapeCasts_S512_S1x512) W2) (ix2 n q)
      = aggK (srcRow ei) (tgtPos ei) (nodeFactor ei)
          (mm (hiddenK (srcRow ei) (tgtPos ei) (nodeFactor ei) (fun n j => x (ix2 n j)) (fun j k => W1 (ix2 j k)) (fun k => b1 (ix1 k)))
            (fun k q => W2 (ix2 k q))) n q := by
  rw [dinvCol_apply, agg300_apply, mul_comm]
  unfold aggK
  refine congrArg₂ (· * ·) (congrArg₂ (· + ·) rfl (Finset.sum_congr rfl fun e _ => ?_)) rfl
  rw [stage1_apply]

end layers

set_option maxHeartbeats 400000 in
/-- The composed kernel value at an entry is the network with rows scaled before they are picked and sums scaled afterwards. -/
theorem kval_apply (x : FVec Ideal S50000x300 .f32) (ei : IVec S2x400000 32) (W1 : FVec Ideal S300x512 .f32) (b1 : FVec Ideal S512 .f32)
    (W2 : FVec Ideal S512x300 .f32) (b2 : FVec Ideal S300 .f32) (n : Fin 50000) (q : Fin 300) :
    kval x ei W1 b1 W2 b2 (ix2 n q)
      = netK (rowOf (N := 50000) (by decide) (normCol (edgeRow0 ei))) (posOf (rawCol (edgeRow1 ei))) (fun n => dinvV ei (ix1 n))
          (fun n k => x (ix2 n k)) (fun k j => W1 (ix2 k j)) (fun j => b1 (ix1 j)) (fun j q => W2 (ix2 j q)) (fun q => b2 (ix1 q)) n q := by
  show max (dinvCol ei (ix2 n (0 : Fin 1))
        * agg300 ei (stage1 (agg512 ei (stage0 x W1 (dinvCol ei))) (dinvCol ei) (shapeCast S1x512 b1 shapeCasts_S512_S1x512) W2) (ix2 n q)
      + shapeCast S1x300 b2 shapeCasts_S300_S1x300 (ix2 (0 : Fin 1) q)) KV.zeroW = _
  rw [layer2_apply, row300_apply]
  rfl

end Cert.KernelIdeal.KV

end
-- ==== Proof.Side.lean ====
/-
  Two side facts about the composed value's definitions, for any vector of counts and any list of positions.

  The node factor. Where the count c of a node is positive its factor is the reciprocal square root of max c 1, elsewhere
  it is zero. The number max c 1 is +infinity or a real that is at least 1, so its reciprocal square root is 0 or the
  inverse of a positive real's square root: in both branches the factor is a nonnegative extended real other than
  +infinity.

  The clamped target. A position is a 32-bit word read as a signed integer. If the integer it names is a node index n
  (0 ≤ n < 50000) it is not negative, so the column of normalised positions keeps the word as it is (only negative
  positions are moved up by the number of nodes), and clamping n into [0, 49999] gives n back.
-/
import proofs.«100301_j47253230191022_2_alg».proof.Proof.KDefs
import proofs.«100301_j47253230191022_2_alg».proof.Proof.Spec
import Idealize.ShloMosaic.Lib.ValueIdx
import Idealize.ShloMosaic.Lib.Pipeline.Value
import Idealize.ShloMosaic.PureOps.Ideal

noncomputable section

namespace Cert.KernelIdeal.KV

open Idealize.ShloMosaic Idealize.ShloMosaic.ValueIdx Cert.KernelIdeal Cert.KernelIdeal.Facts₀

/-! ## The node factor is a nonnegative real -/

/-- The reciprocal square root of an extended real that is at least 1 is nonnegative and not +infinity. -/
theorem rsqrt_ok_of_one_le (x : EReal) (hx : 1 ≤ x) : 0 ≤ Ideal.rsqrt x ∧ Ideal.rsqrt x ≠ ⊤ := by
  induction x using EReal.rec with
  | bot =>
    have h1 : (1 : EReal) ≠ ⊥ := by exact_mod_cast EReal.coe_ne_bot (1 : ℝ)
    exact absurd (le_bot_iff.mp hx) h1
  | top => rw [Ideal.rsqrt_top]; exact ⟨le_refl 0, EReal.zero_ne_top⟩
  | coe r =>
    have hr : (1 : ℝ) ≤ r := by exact_mod_cast hx
    have hpos : (0 : ℝ) < r := by linarith
    rw [Ideal.rsqrt_coe, if_neg (not_lt.mpr hpos.le), if_neg hpos.ne']
    exact ⟨by exact_mod_cast inv_nonneg.mpr (Real.sqrt_nonneg _), EReal.coe_ne_top _⟩

/-- The factor at an index: by the sign of the count, the reciprocal square root of the count raised to at least one,
    or zero. -/
theorem factorOf_apply (deg : FVec Ideal S50000 .f32) (i : S50000.Idx) :
    factorOf deg i
      = Scalar.select (Ideal.cmp .ogt (deg i) zeroW) (Ideal.rsqrt (max (deg i) Cert.Gcn.oneW)) zeroW := rfl

theorem factorOf_ok (deg : FVec Ideal S50000 .f32) (i : S50000.Idx) : 0 ≤ factorOf deg i ∧ factorOf deg i ≠ ⊤ := by
  rw [factorOf_apply]
  unfold Scalar.select
  by_cases hc : Ideal.cmp .ogt (deg i) zeroW = 1
  · rw [if_pos hc]
    exact rsqrt_ok_of_one_le _ (by rw [Cert.Gcn.oneW_eq]; exact le_max_right _ _)
  · rw [if_neg hc]
    have hz : zeroW = 0 := Ideal.ofBits_zero_f32
    rw [hz]
    exact ⟨le_refl 0, EReal.zero_ne_top⟩

/-! ## The clamped target of an accumulated entry is the node it lands on -/

/-- The column of positions as they are, read at entry e. -/
theorem rawCol_apply (v : IVec S450000 32) (e : Fin 450000) : rawCol v (ix2 e (0 : Fin 1)) = v (ix1 e) := by
  unfold rawCol
  refine broadcastInDim_apply _ _ v (ix2 e (0 : Fin 1)) (ix1 e) fun a => ?_
  match a with
  | ⟨0, _⟩ =>
    show e.val = if (450000 : Nat) = 1 then 0 else e.val
    rw [if_neg (by decide)]

/-- The column of normalised positions, read at entry e: a negative position moved up by the number of nodes, any
    other kept. -/
theorem normCol_apply (v : IVec S450000 32) (e : Fin 450000) :
    normCol v (ix2 e (0 : Fin 1))
      = Scalar.select (IntOp.cmpi .slt (v (ix1 e)) 0#32) (v (ix1 e) + 50000#32) (v (ix1 e)) := by
  unfold normCol
  refine (broadcastInDim_apply _ _ _ (ix2 e (0 : Fin 1)) (ix1 e) fun a => ?_).trans rfl
  match a with
  | ⟨0, _⟩ =>
    show e.val = if (450000 : Nat) = 1 then 0 else e.val
    rw [if_neg (by decide)]

theorem clamped_target (v : IVec S450000 32) (e : Fin 450000) (n : Fin 50000) :
    Cert.Net.posOf (rawCol v) e = (n.val : Int) → Cert.Net.rowOf (N := 50000) (by decide) (normCol v) e = n := by
  intro h
  have hn : n.val < 50000 := n.isLt
  have hv : (v (ix1 e)).toInt = (n.val : Int) := by
    have hp : Cert.Net.posOf (rawCol v) e = (rawCol v (ix2 e (0 : Fin 1))).toInt := rfl
    rw [hp, rawCol_apply] at h
    exact h
  have hslt : IntOp.cmpi .slt (v (ix1 e)) 0#32 = 0#1 := by
    have hf : (v (ix1 e)).slt 0#32 = false := by
      unfold BitVec.slt
      rw [hv]
      exact decide_eq_false (by rw [show (0#32 : BitVec 32).toInt = 0 from by decide]; omega)
    show BitVec.ofBool ((v (ix1 e)).slt 0#32) = 0#1
    rw [hf]
    rfl
  apply Fin.ext
  show min (normCol v (ix2 e (0 : Fin 1))).toInt.toNat (50000 - 1) = n.val
  rw [normCol_apply, hslt, select_zero, hv, Int.toNat_natCast]
  omega

end Cert.KernelIdeal.KV

end
-- ==== Proof.RefValue.lean ====
/-
  The reference's result read at an entry is the two-layer network of the specification.

  The entry list has 450000 entries over 50000 nodes. Three columns of positions and one vector are kept here as the
  expressions the program computes from the edge list, and nothing below looks inside them: the column of sources and
  the column of targets in their normalised form, the column of targets as given, and the node factor. Entry e names a
  source row gr e and a clamped target gc e (the normalised position read signed and clamped into the nodes, which is
  what picking a row does with it) and a raw target sc e (the given position read as an integer, not clamped, which is
  what accumulating does with it); dinv n is entry n of the node factor.

  One layer, on a node-feature matrix h:
    * the factor vector picked at the sources and picked at the clamped targets, the two multiplied entry by entry,
      gives for entry e the weight dinv (gr e) · dinv (gc e);
    * the rows of h picked at the sources, each scaled by its entry's weight, give for (e, q) the message
      h (gr e, q) · (dinv (gr e) · dinv (gc e));
    * the messages accumulated into a zero matrix along the raw targets give at (n, q) zero plus the sum, over the
      entries e with sc e = n, of the message of (e, q);
    * the bias row is added and the result is clamped below at zero.
  The first layer does this with h = x · W1, the second with h = hidden · W2. Both read their index columns and the
  node factor from the same edge list, so the columns and the factor that the second layer computes again are the first
  layer's, as expressions. Read at (n, q), the result is therefore the arrangement of the network in which each picked
  row is scaled by both node factors before it is accumulated.
-/
import proofs.«100301_j47253230191022_2_alg».proof.Proof.RefReadP
import proofs.«100301_j47253230191022_2_alg».proof.Proof.Spec
import proofs.«100301_j47253230191022_2_alg».proof.Proof.LibIndexOps
import Idealize.ShloMosaic.Lib.ValueIdx
import Idealize.ShloMosaic.PureOps.Ideal.Laws

noncomputable section

namespace Cert.ReferenceIdeal.RV

open Cert.ReferenceIdeal Cert.ReferenceIdeal.ReadP Cert.ReferenceIdeal.Facts₀ Idealize.ShloMosaic Idealize.ShloMosaic.ValueIdx Cert.Net Cert.Gcn
open scoped BigOperators

/-! ## The arguments and what the network reads of them -/

abbrev Feat := (⟨S50000x300, .f32⟩ : BufTy).Contents (Elt Ideal)
abbrev EdgeList := (⟨S2x400000, .i32⟩ : BufTy).Contents (Elt Ideal)
abbrev Wt1 := (⟨S300x512, .f32⟩ : BufTy).Contents (Elt Ideal)
abbrev Bias1 := (⟨S512, .f32⟩ : BufTy).Contents (Elt Ideal)
abbrev Wt2 := (⟨S512x300, .f32⟩ : BufTy).Contents (Elt Ideal)
abbrev Bias2 := (⟨S300, .f32⟩ : BufTy).Contents (Elt Ideal)

/-- The source row of entry e. -/
abbrev gr (x1 : EdgeList) : Fin 450000 → Fin 50000 := rowOf (N := 50000) (by decide) (val_main_v43 (F := Ideal) x1)
/-- The clamped target of entry e. -/
abbrev gc (x1 : EdgeList) : Fin 450000 → Fin 50000 := rowOf (N := 50000) (by decide) (val_main_v34 (F := Ideal) x1)
/-- The raw target of entry e. -/
abbrev sc (x1 : EdgeList) : Fin 450000 → Int := posOf (val_main_v49 (F := Ideal) x1)
/-- The node factor. -/
abbrev dinv (x1 : EdgeList) : Fin 50000 → EReal := fun n => val_main_v21 (F := Ideal) x1 (ix1 n)

/-- The arguments as functions of their coordinates. -/
abbrev featOf (x0 : Feat) : Fin 50000 → Fin 300 → EReal := fun n k => x0 (ix2 n k)
abbrev wt1Of (x2 : Wt1) : Fin 300 → Fin 512 → EReal := fun k j => x2 (ix2 k j)
abbrev bias1Of (x3 : Bias1) : Fin 512 → EReal := fun j => x3 (ix1 j)
abbrev wt2Of (x4 : Wt2) : Fin 512 → Fin 300 → EReal := fun j q => x4 (ix2 j q)
abbrev bias2Of (x5 : Bias2) : Fin 300 → EReal := fun q => x5 (ix1 q)

/-! ## Two index tuples with the same coordinates are equal -/

theorem idx1_ext {n : Nat} {f g : (⟨1, ![n]⟩ : Shape).Idx} (h : f 0 = g 0) : f = g := by
  funext a
  match a with
  | ⟨0, _⟩ => exact h

theorem idx2_ext {a b : Nat} {f g : (⟨2, ![a, b]⟩ : Shape).Idx} (h0 : f 0 = g 0) (h1 : f 1 = g 1) : f = g := by
  funext d
  match d with
  | ⟨0, _⟩ => exact h0
  | ⟨1, _⟩ => exact h1

/-! ## The program's pick and accumulate records are the general ones -/

theorem vecGather_eq : gather_S50000_S450000x1_S450000_n_0_n_n_0_1_1
    = LibIndexOps.vecGather 50000 450000 Facts₀.gather_S50000_S450000x1_S450000_n_0_n_n_0_1_1_wf := rfl

theorem rowsGather512_eq : gather_S50000x512_S450000x1_S450000x512_1_0_n_n_0_1_1512
    = LibIndexOps.rowsGather 50000 450000 512 Facts₀.gather_S50000x512_S450000x1_S450000x512_1_0_n_n_0_1_1512_wf := rfl

theorem rowsGather300_eq : gather_S50000x300_S450000x1_S450000x300_1_0_n_n_0_1_1300
    = LibIndexOps.rowsGather 50000 450000 300 Facts₀.gather_S50000x300_S450000x1_S450000x300_1_0_n_n_0_1_1300_wf := rfl

theorem rowsScatter512_eq : scatter_S50000x512_S450000x1_S450000x512_1_0_0_1
    = LibIndexOps.rowsScatter 50000 450000 512 Facts₀.scatter_S50000x512_S450000x1_S450000x512_1_0_0_1_wf := rfl

theorem rowsScatter300_eq : scatter_S50000x300_S450000x1_S450000x300_1_0_0_1
    = LibIndexOps.rowsScatter 50000 450000 300 Facts₀.scatter_S50000x300_S450000x1_S450000x300_1_0_0_1_wf := rfl

/-! ## The index columns and the node factor are computed once: each later copy is the same expression -/

theorem v27_eq (x1 : EdgeList) : val_main_v27 (F := Ideal) x1 = val_main_v43 (F := Ideal) x1 := rfl
theorem v75_eq (x1 : EdgeList) : val_main_v75 (F := Ideal) x1 = val_main_v43 (F := Ideal) x1 := rfl
theorem v91_eq (x1 : EdgeList) : val_main_v91 (F := Ideal) x1 = val_main_v43 (F := Ideal) x1 := rfl
theorem v82_eq (x1 : EdgeList) : val_main_v82 (F := Ideal) x1 = val_main_v34 (F := Ideal) x1 := rfl
theorem v97_eq (x1 : EdgeList) : val_main_v97 (F := Ideal) x1 = val_main_v49 (F := Ideal) x1 := rfl
theorem v69_eq (x1 : EdgeList) : val_main_v69 (F := Ideal) x1 = val_main_v21 (F := Ideal) x1 := rfl

/-! ## The first layer -/

/-- The factor picked at the sources. -/
theorem v28_at (x1 : EdgeList) (e : Fin 450000) :
    val_main_v28 (F := Ideal) x1 (ix1 e) = dinv x1 (gr x1 e) := by
  unfold val_main_v28
  rw [vecGather_eq, v27_eq]
  exact LibIndexOps.gather_vec_apply (by decide) _ _ _ e

/-- The factor picked at the clamped targets. -/
theorem v35_at (x1 : EdgeList) (e : Fin 450000) :
    val_main_v35 (F := Ideal) x1 (ix1 e) = dinv x1 (gc x1 e) := by
  unfold val_main_v35
  rw [vecGather_eq]
  exact LibIndexOps.gather_vec_apply (by decide) _ _ _ e

/-- The weight of entry e. -/
theorem v36_at (x1 : EdgeList) (e : Fin 450000) :
    val_main_v36 (F := Ideal) x1 (ix1 e) = dinv x1 (gr x1 e) * dinv x1 (gc x1 e) := by
  rw [val_main_v36_apply, v28_at, v35_at]
  rfl

/-- The weight spread over the columns. -/
theorem v46_at (x1 : EdgeList) (e : Fin 450000) (k : Fin 512) :
    val_main_v46 (F := Ideal) x1 (ix2 e k) = dinv x1 (gr x1 e) * dinv x1 (gc x1 e) := by
  have h : idx_main_v45 (idx_main_v46 (ix2 e k)) = ix1 e := idx1_ext rfl
  rw [val_main_v46_apply, val_main_v45_apply, h]
  exact v36_at x1 e

/-- The product x · W1 at (n, k). -/
theorem v37_at (x0 : Feat) (x2 : Wt1) (n : Fin 50000) (k : Fin 512) :
    val_main_v37 (F := Ideal) x0 x2 (ix2 n k) = mm (featOf x0) (wt1Of x2) n k := by
  rw [val_main_v37_apply]
  unfold mm
  refine Finset.sum_congr rfl fun j _ => ?_
  have hl : lidx_main_v37 (ix2 n k) j = ix2 n j := idx2_ext rfl rfl
  have hr : ridx_main_v37 (ix2 n k) j = ix2 j k := idx2_ext rfl rfl
  rw [hl, hr]

/-- The rows of the product picked at the sources. -/
theorem v44_at (x0 : Feat) (x1 : EdgeList) (x2 : Wt1) (e : Fin 450000) (k : Fin 512) :
    val_main_v44 (F := Ideal) x0 x1 x2 (ix2 e k) = mm (featOf x0) (wt1Of x2) (gr x1 e) k := by
  unfold val_main_v44
  rw [rowsGather512_eq]
  exact (LibIndexOps.gather_rows_apply (by decide) _ _ _ e k).trans (v37_at x0 x2 _ k)

/-- The message of entry e at column k. -/
theorem v47_at (x0 : Feat) (x1 : EdgeList) (x2 : Wt1) (e : Fin 450000) (k : Fin 512) :
    val_main_v47 (F := Ideal) x0 x1 x2 (ix2 e k)
      = mm (featOf x0) (wt1Of x2) (gr x1 e) k * (dinv x1 (gr x1 e) * dinv x1 (gc x1 e)) := by
  rw [val_main_v47_apply, v44_at, v46_at]
  rfl

/-- The messages accumulated along the raw targets. -/
theorem v50_at (x0 : Feat) (x1 : EdgeList) (x2 : Wt1) (n : Fin 50000) (k : Fin 512) :
    val_main_v50 (F := Ideal) x0 x1 x2 (ix2 n k)
      = aggR (gr x1) (gc x1) (sc x1) (dinv x1) (mm (featOf x0) (wt1Of x2)) n k := by
  unfold val_main_v50
  rw [rowsScatter512_eq, LibIndexOps.scatterAdd_rows_apply]
  unfold aggR
  refine congrArg₂ (· + ·) ?_ (Finset.sum_congr rfl fun e _ => ?_)
  · rw [val_main_v48_apply]; rfl
  · rw [v47_at]; rfl

/-- The hidden layer at (n, k). -/
theorem v54_at (x0 : Feat) (x1 : EdgeList) (x2 : Wt1) (x3 : Bias1) (n : Fin 50000) (k : Fin 512) :
    val_main_v54 (F := Ideal) x0 x1 x2 x3 (ix2 n k)
      = hiddenR (gr x1) (gc x1) (sc x1) (dinv x1) (featOf x0) (wt1Of x2) (bias1Of x3) n k := by
  have h : idx_main_v51 (idx_main_v52 (ix2 n k)) = ix1 k := idx1_ext rfl
  rw [val_main_v54_apply, val_main_v53_apply, v50_at, val_main_v52_apply, val_main_v51_apply, h, val_main_call1_v0_apply,
    val_main_call1_cst_apply]
  rfl

/-! ## The second layer -/

/-- The factor picked at the sources, second layer. -/
theorem v76_at (x1 : EdgeList) (e : Fin 450000) :
    val_main_v76 (F := Ideal) x1 (ix1 e) = dinv x1 (gr x1 e) := by
  unfold val_main_v76
  rw [vecGather_eq, v75_eq, v69_eq]
  exact LibIndexOps.gather_vec_apply (by decide) _ _ _ e

/-- The factor picked at the clamped targets, second layer. -/
theorem v83_at (x1 : EdgeList) (e : Fin 450000) :
    val_main_v83 (F := Ideal) x1 (ix1 e) = dinv x1 (gc x1 e) := by
  unfold val_main_v83
  rw [vecGather_eq, v82_eq, v69_eq]
  exact LibIndexOps.gather_vec_apply (by decide) _ _ _ e

/-- The weight of entry e, second layer. -/
theorem v84_at (x1 : EdgeList) (e : Fin 450000) :
    val_main_v84 (F := Ideal) x1 (ix1 e) = dinv x1 (gr x1 e) * dinv x1 (gc x1 e) := by
  rw [val_main_v84_apply, v76_at, v83_at]
  rfl

/-- The weight spread over the columns, second layer. -/
theorem v94_at (x1 : EdgeList) (e : Fin 450000) (q : Fin 300) :
    val_main_v94 (F := Ideal) x1 (ix2 e q) = dinv x1 (gr x1 e) * dinv x1 (gc x1 e) := by
  have h : idx_main_v93 (idx_main_v94 (ix2 e q)) = ix1 e := idx1_ext rfl
  rw [val_main_v94_apply, val_main_v93_apply, h]
  exact v84_at x1 e

/-- The hidden layer as a function of its coordinates. -/
abbrev hid (x0 : Feat) (x1 : EdgeList) (x2 : Wt1) (x3 : Bias1) : Fin 50000 → Fin 512 → EReal :=
  hiddenR (gr x1) (gc x1) (sc x1) (dinv x1) (featOf x0) (wt1Of x2) (bias1Of x3)

/-- The product hidden · W2 at (n, q). -/
theorem v85_at (x0 : Feat) (x1 : EdgeList) (x2 : Wt1) (x3 : Bias1) (x4 : Wt2) (n : Fin 50000) (q : Fin 300) :
    val_main_v85 (F := Ideal) x0 x1 x2 x3 x4 (ix2 n q) = mm (hid x0 x1 x2 x3) (wt2Of x4) n q := by
  rw [val_main_v85_apply]
  unfold mm
  refine Finset.sum_congr rfl fun j _ => ?_
  have hl : lidx_main_v85 (ix2 n q) j = ix2 n j := idx2_ext rfl rfl
  have hr : ridx_main_v85 (ix2 n q) j = ix2 j q := idx2_ext rfl rfl
  rw [hl, hr, v54_at]

/-- The rows of the product picked at the sources, second layer. -/
theorem v92_at (x0 : Feat) (x1 : EdgeList) (x2 : Wt1) (x3 : Bias1) (x4 : Wt2) (e : Fin 450000) (q : Fin 300) :
    val_main_v92 (F := Ideal) x0 x1 x2 x3 x4 (ix2 e q) = mm (hid x0 x1 x2 x3) (wt2Of x4) (gr x1 e) q := by
  unfold val_main_v92
  rw [rowsGather300_eq, v91_eq]
  exact (LibIndexOps.gather_rows_apply (by decide) _ _ _ e q).trans (v85_at x0 x1 x2 x3 x4 _ q)

/-- The message of entry e at column q, second layer. -/
theorem v95_at (x0 : Feat) (x1 : EdgeList) (x2 : Wt1) (x3 : Bias1) (x4 : Wt2) (e : Fin 450000) (q : Fin 300) :
    val_main_v95 (F := Ideal) x0 x1 x2 x3 x4 (ix2 e q)
      = mm (hid x0 x1 x2 x3) (wt2Of x4) (gr x1 e) q * (dinv x1 (gr x1 e) * dinv x1 (gc x1 e)) := by
  rw [val_main_v95_apply, v92_at, v94_at]
  rfl

/-- The messages accumulated along the raw targets, second layer. -/
theorem v98_at (x0 : Feat) (x1 : EdgeList) (x2 : Wt1) (x3 : Bias1) (x4 : Wt2) (n : Fin 50000) (q : Fin 300) :
    val_main_v98 (F := Ideal) x0 x1 x2 x3 x4 (ix2 n q)
      = aggR (gr x1) (gc x1) (sc x1) (dinv x1) (mm (hid x0 x1 x2 x3) (wt2Of x4)) n q := by
  unfold val_main_v98
  rw [rowsScatter300_eq, v97_eq, LibIndexOps.scatterAdd_rows_apply]
  unfold aggR
  refine congrArg₂ (· + ·) ?_ (Finset.sum_congr rfl fun e _ => ?_)
  · rw [val_main_v96_apply]; rfl
  · rw [v95_at]; rfl

/-- The network's result at (n, q). -/
theorem v102_at (x0 : Feat) (x1 : EdgeList) (x2 : Wt1) (x3 : Bias1) (x4 : Wt2) (x5 : Bias2) (n : Fin 50000) (q : Fin 300) :
    val_main_v102 (F := Ideal) x0 x1 x2 x3 x4 x5 (ix2 n q)
      = netR (gr x1) (gc x1) (sc x1) (dinv x1) (featOf x0) (wt1Of x2) (bias1Of x3) (wt2Of x4) (bias2Of x5) n q := by
  have h : idx_main_v99 (idx_main_v100 (ix2 n q)) = ix1 q := idx1_ext rfl
  rw [val_main_v102_apply, val_main_v101_apply, v98_at, val_main_v100_apply, val_main_v99_apply, h, val_main_call3_v0_apply,
    val_main_call3_cst_apply]
  rfl

/-! ## The statement over the arguments themselves -/

/-- Entry (n, q) of the reference's result: the network, each picked row scaled by both node factors before it is
    accumulated, over the source rows, clamped targets, raw targets and node factor read from the edge list. -/
theorem ref_apply (x0 : (⟨S50000x300, .f32⟩ : BufTy).Contents (Elt Ideal)) (x1 : (⟨S2x400000, .i32⟩ : BufTy).Contents (Elt Ideal))
    (x2 : (⟨S300x512, .f32⟩ : BufTy).Contents (Elt Ideal)) (x3 : (⟨S512, .f32⟩ : BufTy).Contents (Elt Ideal))
    (x4 : (⟨S512x300, .f32⟩ : BufTy).Contents (Elt Ideal)) (x5 : (⟨S300, .f32⟩ : BufTy).Contents (Elt Ideal)) (n : Fin 50000) (q : Fin 300) :
    val_main_v102 (F := Ideal) x0 x1 x2 x3 x4 x5 (ix2 n q)
      = netR (rowOf (N := 50000) (by decide) (val_main_v43 (F := Ideal) x1)) (rowOf (N := 50000) (by decide) (val_main_v34 (F := Ideal) x1))
          (posOf (val_main_v49 (F := Ideal) x1)) (fun n => val_main_v21 (F := Ideal) x1 (ix1 n))
          (fun n k => x0 (ix2 n k)) (fun k j => x2 (ix2 k j)) (fun j => x3 (ix1 j)) (fun j q => x4 (ix2 j q)) (fun q => x5 (ix1 q)) n q :=
  v102_at x0 x1 x2 x3 x4 x5 n q

end Cert.ReferenceIdeal.RV

end
-- ==== Proof.Bridge.lean ====
/-
  The two programs read the same entry list and the same node factor from the edge array.

  Both programs build, from the edge array's two rows, the list of sources and the list of targets (each row followed by
  every node once), turn a list into a column of positions in two ways (as it is; or with each negative position moved
  up by the number of nodes first), count for every node the list entries accumulated into it (ones accumulated into
  zeros along the normalised targets), and take the node factor from the count (where the count is positive, the
  reciprocal square root of the count raised to at least one; elsewhere zero). Each program spells these operations
  once over its own copies of the shape names and of the shape side conditions. The shape names of the two programs
  abbreviate the same literals and the side conditions are propositions, so the two spellings are the same expressions:
  every equation below holds by unfolding definitions.
-/
import proofs.«100301_j47253230191022_2_alg».proof.Proof.RefReadP
import proofs.«100301_j47253230191022_2_alg».proof.Proof.KDefs

noncomputable section

namespace Cert.Bridge

open Idealize.ShloMosaic

/-- The column of normalised sources. -/
theorem src_eq (x1 : IVec Cert.KernelIdeal.S2x400000 32) :
    Cert.ReferenceIdeal.ReadP.val_main_v43 (F := Ideal) x1 = Cert.KernelIdeal.KV.normCol (Cert.KernelIdeal.KV.edgeRow0 x1) := rfl

/-- The column of normalised targets. -/
theorem dstN_eq (x1 : IVec Cert.KernelIdeal.S2x400000 32) :
    Cert.ReferenceIdeal.ReadP.val_main_v34 (F := Ideal) x1 = Cert.KernelIdeal.KV.normCol (Cert.KernelIdeal.KV.edgeRow1 x1) := rfl

/-- The column of targets as given. -/
theorem dstR_eq (x1 : IVec Cert.KernelIdeal.S2x400000 32) :
    Cert.ReferenceIdeal.ReadP.val_main_v49 (F := Ideal) x1 = Cert.KernelIdeal.KV.rawCol (Cert.KernelIdeal.KV.edgeRow1 x1) := rfl

/-- The node factor. -/
theorem factor_eq (x1 : IVec Cert.KernelIdeal.S2x400000 32) :
    Cert.ReferenceIdeal.ReadP.val_main_v21 (F := Ideal) x1 = Cert.KernelIdeal.KV.dinvV x1 := rfl

end Cert.Bridge

end
-- ==== Proof.lean ====
/-
  Two graph convolutions with symmetric normalisation over an edge list with self loops, each followed by a bias and a
  clamp below at zero: the tiled program against the plain one, at the exact extended-real values.

  Both programs count, for every node, the list entries that target it, take the guarded reciprocal square root of the
  count as the node's factor d, and in each layer form the product H = X · W, pick the rows of H along the edge list's
  sources and accumulate them into the rows named by its targets. The plain program scales each picked row by
  d(source) · d(target) before it is accumulated. The tiled program scales the rows of H by d before they are picked and
  the accumulated sum by d afterwards, in three tiled stages of 1000 node rows with the pick-and-accumulate between them.
  An entry is accumulated into node n exactly when its target, read as a signed integer, is n; its clamped target is
  then n as well, the factor of n is a nonnegative real, and a nonnegative real factor distributes over every finite sum
  of extended reals: the two arrangements agree entry by entry, whatever the features and weights are. No operation is
  rewritten between the tiled program and its exact reading, so that claim is empty.
-/
import proofs.«100301_j47253230191022_2_alg».proof.Defs
import proofs.«100301_j47253230191022_2_alg».proof.Proof.Gen.Kernel
import proofs.«100301_j47253230191022_2_alg».proof.Proof.Gen.Kernel.Skeleton
import proofs.«100301_j47253230191022_2_alg».proof.Proof.Gen.Kernel.Launch
import proofs.«100301_j47253230191022_2_alg».proof.Proof.Gen.Kernel.Points
import proofs.«100301_j47253230191022_2_alg».proof.Proof.Gen.Kernel.Frame
import proofs.«100301_j47253230191022_2_alg».proof.Proof.Gen.KernelIdeal
import proofs.«100301_j47253230191022_2_alg».proof.Proof.Gen.KernelIdeal.Skeleton
import proofs.«100301_j47253230191022_2_alg».proof.Proof.Gen.KernelIdeal.Launch
import proofs.«100301_j47253230191022_2_alg».proof.Proof.Gen.KernelIdeal.Points
import proofs.«100301_j47253230191022_2_alg».proof.Proof.Gen.KernelIdeal.Frame
import proofs.«100301_j47253230191022_2_alg».proof.Proof.Gen.ReferenceIdeal
import proofs.«100301_j47253230191022_2_alg».proof.Proof.Gen.Pre_finite_inputs
import proofs.«100301_j47253230191022_2_alg».proof.Proof.RefRunP
import proofs.«100301_j47253230191022_2_alg».proof.Proof.RefReadP
import proofs.«100301_j47253230191022_2_alg».proof.Proof.Spec
import proofs.«100301_j47253230191022_2_alg».proof.Proof.KRun
import proofs.«100301_j47253230191022_2_alg».proof.Proof.KFactor
import proofs.«100301_j47253230191022_2_alg».proof.Proof.KChain
import proofs.«100301_j47253230191022_2_alg».proof.Proof.KValue
import proofs.«100301_j47253230191022_2_alg».proof.Proof.Side
import proofs.«100301_j47253230191022_2_alg».proof.Proof.RefValue
import proofs.«100301_j47253230191022_2_alg».proof.Proof.Bridge
import Idealize.ShloMosaic.Adequacy
import Idealize.ShloMosaic.Init

noncomputable section

namespace Cert.Proof

open Idealize.ShloMosaic Idealize.ShloMosaic.ValueIdx Idealize.SL.Sem

/-- The plain program's result is the tiled program's composed value, as functions of the six argument arrays: entry
    by entry the first is the arrangement that scales each picked row by both factors, the second the arrangement that
    scales before picking and after accumulating, over the same edge list and the same node factor. -/
theorem result_eq (x0 : FVec Ideal Cert.KernelIdeal.S50000x300 .f32) (x1 : IVec Cert.KernelIdeal.S2x400000 32)
    (x2 : FVec Ideal Cert.KernelIdeal.S300x512 .f32) (x3 : FVec Ideal Cert.KernelIdeal.S512 .f32)
    (x4 : FVec Ideal Cert.KernelIdeal.S512x300 .f32) (x5 : FVec Ideal Cert.KernelIdeal.S300 .f32) :
    Cert.ReferenceIdeal.ReadP.val_main_v102 (F := Ideal) x0 x1 x2 x3 x4 x5 = Cert.KernelIdeal.KV.kval x0 x1 x2 x3 x4 x5 := by
  funext i
  obtain ⟨n, q, rfl⟩ : ∃ (n : Fin 50000) (q : Fin 300), i = ix2 n q := ⟨i 0, i 1, eq_ix2 i⟩
  rw [Cert.ReferenceIdeal.RV.ref_apply, Cert.KernelIdeal.KV.kval_apply, Cert.Bridge.src_eq, Cert.Bridge.dstN_eq,
    Cert.Bridge.dstR_eq, Cert.Bridge.factor_eq]
  exact (Cert.Net.netK_eq_netR _ _ _ _ (fun e n h => Cert.KernelIdeal.KV.clamped_target _ e n h)
    (fun n => Cert.KernelIdeal.KV.factorOf_ok _ _) _ _ _ _ _ n q).symm

theorem frame_k : Cert.frame_Kernel := fun m ρ _ => Cert.Kernel.Gen.frame m ρ

theorem frame_ki : Cert.frame_KernelIdeal := fun m ρ _ => Cert.KernelIdeal.Gen.frame m ρ

/-- The plain program's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories that agree on the arguments both programs end with the same result array: the tiled program's result
    buffer holds the composed value of its arguments (its run, then the boundaries read one by one), the plain program's
    holds its last stage, and the two are one function. -/
theorem algebraic : Cert.algebraic_KernelIdeal_ReferenceIdeal := by
  intro m ρ m' ρ' _ hagree
  refine ⟨fun c => Cert.KernelIdeal.KV.kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KV.last_result m ρ c (Cert.KernelIdeal.KV.pre_factor m ρ c)), (h c).2⟩)
      (Cert.KernelIdeal.KV.run_last (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v102_eq, (hagree c).1, (hagree c).2.1, (hagree c).2.2.1, (hagree c).2.2.2.1,
      (hagree c).2.2.2.2.1, (hagree c).2.2.2.2.2]
    exact result_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
